-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S3072x1024 .f32) (main_arg2 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S4096x1024 : Shape := ⟨2, ![4096, 1024]⟩
abbrev S2x16x2048x64 : Shape := ⟨4, ![2, 16, 2048, 64]⟩
abbrev S256x1024 : Shape := ⟨2, ![256, 1024]⟩
abbrev S1x16x256x64 : Shape := ⟨4, ![1, 16, 256, 64]⟩
abbrev S256x3072 : Shape := ⟨2, ![256, 3072]⟩
abbrev S256x64 : Shape := ⟨2, ![256, 64]⟩
abbrev S1x1x256x64 : Shape := ⟨4, ![1, 1, 256, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x16x512x64 : Shape := ⟨4, ![1, 16, 512, 64]⟩
abbrev S512x1024 : Shape := ⟨2, ![512, 1024]⟩
abbrev S1x1x512x64 : Shape := ⟨4, ![1, 1, 512, 64]⟩

abbrev nBuf : Space → Nat
  | .hbm => 16
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S3072x1024, .bf16⟩
  | .hbm, ⟨4, _⟩ => ⟨S1024x1024, .bf16⟩
  | .hbm, ⟨5, _⟩ => ⟨S4096x1024, .f32⟩
  | .hbm, ⟨6, _⟩ => ⟨S2x16x2048x64, .bf16⟩
  | .hbm, ⟨7, _⟩ => ⟨S2x16x2048x64, .bf16⟩
  | .hbm, ⟨8, _⟩ => ⟨S2x16x2048x64, .bf16⟩
  | .hbm, ⟨9, _⟩ => ⟨S32x2048x64, .bf16⟩
  | .hbm, ⟨10, _⟩ => ⟨S32x2048x64, .bf16⟩
  | .hbm, ⟨11, _⟩ => ⟨S32x2048x64, .bf16⟩
  | .hbm, ⟨12, _⟩ => ⟨S32x2048x64, .bf16⟩
  | .hbm, ⟨13, _⟩ => ⟨S2x16x2048x64, .bf16⟩
  | .hbm, ⟨14, _⟩ => ⟨S4096x1024, .f32⟩
  | .hbm, ⟨15, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S3072x1024, .bf16⟩
  | .local _ .vmem, ⟨3, _⟩ => ⟨S1x16x256x64, .bf16⟩
  | .local _ .vmem, ⟨4, _⟩ => ⟨S1x16x256x64, .bf16⟩
  | .local _ .vmem, ⟨5, _⟩ => ⟨S1x16x256x64, .bf16⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x2048x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x512x64, .bf16⟩
  | .local _ .vmem, ⟨16, _⟩ => ⟨S1x512x64, .bf16⟩
  | .local _ .vmem, ⟨17, _⟩ => ⟨S1x16x512x64, .bf16⟩
  | .local _ .vmem, ⟨18, _⟩ => ⟨S1x16x512x64, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  shapeCasts_S2x2048x1024_S4096x1024 : S2x2048x1024.ShapeCasts S4096x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S256x1024_o0_0_S256x64 : S256x1024.Slices ![0, 0] S256x64
  slices_S256x1024_o0_64_S256x64 : S256x1024.Slices ![0, 64] S256x64
  slices_S256x1024_o0_128_S256x64 : S256x1024.Slices ![0, 128] S256x64
  slices_S256x1024_o0_192_S256x64 : S256x1024.Slices ![0, 192] S256x64
  slices_S256x1024_o0_256_S256x64 : S256x1024.Slices ![0, 256] S256x64
  slices_S256x1024_o0_320_S256x64 : S256x1024.Slices ![0, 320] S256x64
  slices_S256x1024_o0_384_S256x64 : S256x1024.Slices ![0, 384] S256x64
  slices_S256x1024_o0_448_S256x64 : S256x1024.Slices ![0, 448] S256x64
  slices_S256x1024_o0_512_S256x64 : S256x1024.Slices ![0, 512] S256x64
  slices_S256x1024_o0_576_S256x64 : S256x1024.Slices ![0, 576] S256x64
  slices_S256x1024_o0_640_S256x64 : S256x1024.Slices ![0, 640] S256x64
  slices_S256x1024_o0_704_S256x64 : S256x1024.Slices ![0, 704] S256x64
  slices_S256x1024_o0_768_S256x64 : S256x1024.Slices ![0, 768] S256x64
  slices_S256x1024_o0_832_S256x64 : S256x1024.Slices ![0, 832] S256x64
  slices_S256x1024_o0_896_S256x64 : S256x1024.Slices ![0, 896] S256x64
  slices_S256x1024_o0_960_S256x64 : S256x1024.Slices ![0, 960] S256x64
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  packedbf16_S1x16x256x64_S1x1x256x64_0_0_0_0 : (Rect.unit (s := S1x16x256x64) ![0, 0, 0, 0] S1x1x256x64.size inb_S1x16x256x64_S1x1x256x64_0_0_0_0).PackedRows (EltTy.packing .bf16)
  inb_S1x16x256x64_S1x1x256x64_0_1_0_0 : ∀ a, (![0, 1, 0, 0] : Fin 4 → Nat) a + S1x1x256x64.size a ≤ S1x16x256x64.size a
  packedbf16_S1x16x256x64_S1x1x256x64_0_1_0_0 : (Rect.unit (s := S1x16x256x64) ![0, 1, 0, 0] S1x1x256x64.size inb_S1x16x256x64_S1x1x256x64_0_1_0_0).PackedRows (EltTy.packing .bf16)
  inb_S1x16x256x64_S1x1x256x64_0_2_0_0 : ∀ a, (![0, 2, 0, 0] : Fin 4 → Nat) a + S1x1x256x64.size a ≤ S1x16x256x64.size a
  packedbf16_S1x16x256x64_S1x1x256x64_0_2_0_0 : (Rect.unit (s := S1x16x256x64) ![0, 2, 0, 0] S1x1x256x64.size inb_S1x16x256x64_S1x1x256x64_0_2_0_0).PackedRows (EltTy.packing .bf16)
  inb_S1x16x256x64_S1x1x256x64_0_3_0_0 : ∀ a, (![0, 3, 0, 0] : Fin 4 → Nat) a + S1x1x256x64.size a ≤ S1x16x256x64.size a
  packedbf16_S1x16x256x64_S1x1x256x64_0_3_0_0 : (Rect.unit (s := S1x16x256x64) ![0, 3, 0, 0] S1x1x256x64.size inb_S1x16x256x64_S1x1x256x64_0_3_0_0).PackedRows (EltTy.packing .bf16)
  inb_S1x16x256x64_S1x1x256x64_0_4_0_0 : ∀ a, (![0, 4, 0, 0] : Fin 4 → Nat) a + S1x1x256x64.size a ≤ S1x16x256x64.size a
  packedbf16_S1x16x256x64_S1x1x256x64_0_4_0_0 : (Rect.unit (s := S1x16x256x64) ![0, 4, 0, 0] S1x1x256x64.size inb_S1x16x256x64_S1x1x256x64_0_4_0_0).PackedRows (EltTy.packing .bf16)
  inb_S1x16x256x64_S1x1x256x64_0_5_0_0 : ∀ a, (![0, 5, 0, 0] : Fin 4 → Nat) a + S1x1x256x64.size a ≤ S1x16x256x64.size a
  packedbf16_S1x16x256x64_S1x1x256x64_0_5_0_0 : (Rect.unit (s := S1x16x256x64) ![0, 5, 0, 0] S1x1x256x64.size inb_S1x16x256x64_S1x1x256x64_0_5_0_0).PackedRows (EltTy.packing .bf16)
  inb_S1x16x256x64_S1x1x256x64_0_6_0_0 : ∀ a, (![0, 6, 0, 0] : Fin 4 → Nat) a + S1x1x256x64.size a ≤ S1x16x256x64.size a
  packedbf16_S1x16x256x64_S1x1x256x64_0_6_0_0 : (Rect.unit (s := S1x16x256x64) ![0, 6, 0, 0] S1x1x256x64.size inb_S1x16x256x64_S1x1x256x64_0_6_0_0).PackedRows (EltTy.packing .bf16)
  inb_S1x16x256x64_S1x1x256x64_0_7_0_0 : ∀ a, (![0, 7, 0, 0] : Fin 4 → Nat) a + S1x1x256x64.size a ≤ S1x16x256x64.size a
  packedbf16_S1x16x256x64_S1x1x256x64_0_7_0_0 : (Rect.unit (s := S1x16x256x64) ![0, 7, 0, 0] S1x1x256x64.size inb_S1x16x256x64_S1x1x256x64_0_7_0_0).PackedRows (EltTy.packing .bf16)
  inb_S1x16x256x64_S1x1x256x64_0_8_0_0 : ∀ a, (![0, 8, 0, 0] : Fin 4 → Nat) a + S1x1x256x64.size a ≤ S1x16x256x64.size a
  packedbf16_S1x16x256x64_S1x1x256x64_0_8_0_0 : (Rect.unit (s := S1x16x256x64) ![0, 8, 0, 0] S1x1x256x64.size inb_S1x16x256x64_S1x1x256x64_0_8_0_0).PackedRows (EltTy.packing .bf16)
  inb_S1x16x256x64_S1x1x256x64_0_9_0_0 : ∀ a, (![0, 9, 0, 0] : Fin 4 → Nat) a + S1x1x256x64.size a ≤ S1x16x256x64.size a
  packedbf16_S1x16x256x64_S1x1x256x64_0_9_0_0 : (Rect.unit (s := S1x16x256x64) ![0, 9, 0, 0] S1x1x256x64.size inb_S1x16x256x64_S1x1x256x64_0_9_0_0).PackedRows (EltTy.packing .bf16)
  inb_S1x16x256x64_S1x1x256x64_0_10_0_0 : ∀ a, (![0, 10, 0, 0] : Fin 4 → Nat) a + S1x1x256x64.size a ≤ S1x16x256x64.size a
  packedbf16_S1x16x256x64_S1x1x256x64_0_10_0_0 : (Rect.unit (s := S1x16x256x64) ![0, 10, 0, 0] S1x1x256x64.size inb_S1x16x256x64_S1x1x256x64_0_10_0_0).PackedRows (EltTy.packing .bf16)
  inb_S1x16x256x64_S1x1x256x64_0_11_0_0 : ∀ a, (![0, 11, 0, 0] : Fin 4 → Nat) a + S1x1x256x64.size a ≤ S1x16x256x64.size a
  packedbf16_S1x16x256x64_S1x1x256x64_0_11_0_0 : (Rect.unit (s := S1x16x256x64) ![0, 11, 0, 0] S1x1x256x64.size inb_S1x16x256x64_S1x1x256x64_0_11_0_0).PackedRows (EltTy.packing .bf16)
  inb_S1x16x256x64_S1x1x256x64_0_12_0_0 : ∀ a, (![0, 12, 0, 0] : Fin 4 → Nat) a + S1x1x256x64.size a ≤ S1x16x256x64.size a
  packedbf16_S1x16x256x64_S1x1x256x64_0_12_0_0 : (Rect.unit (s := S1x16x256x64) ![0, 12, 0, 0] S1x1x256x64.size inb_S1x16x256x64_S1x1x256x64_0_12_0_0).PackedRows (EltTy.packing .bf16)
  inb_S1x16x256x64_S1x1x256x64_0_13_0_0 : ∀ a, (![0, 13, 0, 0] : Fin 4 → Nat) a + S1x1x256x64.size a ≤ S1x16x256x64.size a
  packedbf16_S1x16x256x64_S1x1x256x64_0_13_0_0 : (Rect.unit (s := S1x16x256x64) ![0, 13, 0, 0] S1x1x256x64.size inb_S1x16x256x64_S1x1x256x64_0_13_0_0).PackedRows (EltTy.packing .bf16)
  inb_S1x16x256x64_S1x1x256x64_0_14_0_0 : ∀ a, (![0, 14, 0, 0] : Fin 4 → Nat) a + S1x1x256x64.size a ≤ S1x16x256x64.size a
  packedbf16_S1x16x256x64_S1x1x256x64_0_14_0_0 : (Rect.unit (s := S1x16x256x64) ![0, 14, 0, 0] S1x1x256x64.size inb_S1x16x256x64_S1x1x256x64_0_14_0_0).PackedRows (EltTy.packing .bf16)
  inb_S1x16x256x64_S1x1x256x64_0_15_0_0 : ∀ a, (![0, 15, 0, 0] : Fin 4 → Nat) a + S1x1x256x64.size a ≤ S1x16x256x64.size a
  packedbf16_S1x16x256x64_S1x1x256x64_0_15_0_0 : (Rect.unit (s := S1x16x256x64) ![0, 15, 0, 0] S1x1x256x64.size inb_S1x16x256x64_S1x1x256x64_0_15_0_0).PackedRows (EltTy.packing .bf16)
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  inb_S1x16x512x64_S1x1x512x64_0_1_0_0 : ∀ a, (![0, 1, 0, 0] : Fin 4 → Nat) a + S1x1x512x64.size a ≤ S1x16x512x64.size a
  inb_S1x16x512x64_S1x1x512x64_0_2_0_0 : ∀ a, (![0, 2, 0, 0] : Fin 4 → Nat) a + S1x1x512x64.size a ≤ S1x16x512x64.size a
  inb_S1x16x512x64_S1x1x512x64_0_3_0_0 : ∀ a, (![0, 3, 0, 0] : Fin 4 → Nat) a + S1x1x512x64.size a ≤ S1x16x512x64.size a
  inb_S1x16x512x64_S1x1x512x64_0_4_0_0 : ∀ a, (![0, 4, 0, 0] : Fin 4 → Nat) a + S1x1x512x64.size a ≤ S1x16x512x64.size a
  inb_S1x16x512x64_S1x1x512x64_0_5_0_0 : ∀ a, (![0, 5, 0, 0] : Fin 4 → Nat) a + S1x1x512x64.size a ≤ S1x16x512x64.size a
  inb_S1x16x512x64_S1x1x512x64_0_6_0_0 : ∀ a, (![0, 6, 0, 0] : Fin 4 → Nat) a + S1x1x512x64.size a ≤ S1x16x512x64.size a
  inb_S1x16x512x64_S1x1x512x64_0_7_0_0 : ∀ a, (![0, 7, 0, 0] : Fin 4 → Nat) a + S1x1x512x64.size a ≤ S1x16x512x64.size a
  inb_S1x16x512x64_S1x1x512x64_0_8_0_0 : ∀ a, (![0, 8, 0, 0] : Fin 4 → Nat) a + S1x1x512x64.size a ≤ S1x16x512x64.size a
  inb_S1x16x512x64_S1x1x512x64_0_9_0_0 : ∀ a, (![0, 9, 0, 0] : Fin 4 → Nat) a + S1x1x512x64.size a ≤ S1x16x512x64.size a
  inb_S1x16x512x64_S1x1x512x64_0_10_0_0 : ∀ a, (![0, 10, 0, 0] : Fin 4 → Nat) a + S1x1x512x64.size a ≤ S1x16x512x64.size a
  inb_S1x16x512x64_S1x1x512x64_0_11_0_0 : ∀ a, (![0, 11, 0, 0] : Fin 4 → Nat) a + S1x1x512x64.size a ≤ S1x16x512x64.size a
  inb_S1x16x512x64_S1x1x512x64_0_12_0_0 : ∀ a, (![0, 12, 0, 0] : Fin 4 → Nat) a + S1x1x512x64.size a ≤ S1x16x512x64.size a
  inb_S1x16x512x64_S1x1x512x64_0_13_0_0 : ∀ a, (![0, 13, 0, 0] : Fin 4 → Nat) a + S1x1x512x64.size a ≤ S1x16x512x64.size a
  inb_S1x16x512x64_S1x1x512x64_0_14_0_0 : ∀ a, (![0, 14, 0, 0] : Fin 4 → Nat) a + S1x1x512x64.size a ≤ S1x16x512x64.size a
  inb_S1x16x512x64_S1x1x512x64_0_15_0_0 : ∀ a, (![0, 15, 0, 0] : Fin 4 → Nat) a + S1x1x512x64.size a ≤ S1x16x512x64.size a
  concatenates_S512x64_S512x64_S512x64_S512x64_S512x64_S512x64_S512x64_S512x64_S512x64_S512x64_S512x64_S512x64_S512x64_S512x64_S512x64_S512x64_S512x1024_d1 : Shape.Concatenates [S512x64, S512x64, S512x64, S512x64, S512x64, S512x64, S512x64, S512x64, S512x64, S512x64, S512x64, S512x64, S512x64, S512x64, S512x64, S512x64] S512x1024 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S4096x1024_S2x2048x1024 : S4096x1024.ShapeCasts S2x2048x1024
  dot_S256x1024_S3072x1024_S256x3072_1_1_0_0_n_n_wf : DotDims.WF S256x1024 S3072x1024 S256x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x64.size a ≤ S2x16x2048x64.size a
  hwx0_2 : ∀ i : grid0.Coords, EltTy.bits .bf16 = 32 ∨ (Rect.block (s := S2x16x2048x64) S1x16x256x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S2x16x2048x64.size a
  hwx0_3 : ∀ i : grid0.Coords, EltTy.bits .bf16 = 32 ∨ (Rect.block (s := S2x16x2048x64) S1x16x256x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .bf16 = 32 ∨ (Rect.block (s := S2x16x2048x64) S1x16x256x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .bf16 = 32 ∨ (Rect.block (s := S2x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S256x1024_S3072x1024_S256x3072_1_1_0_0_n_n : DotDims S256x1024 S3072x1024 S256x3072 where
  lhsContracting := [1]
  rhsContracting := [1]
  lhsNonContracting := [0]
  rhsNonContracting := [0]
  lhsBatch := []
  rhsBatch := []
  wf := dot_S256x1024_S3072x1024_S256x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x16x256x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S2x2048x3072, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.RunValue.lean ====
/-
  The idealized kernel's run with its RESULT named.  @main is seven segments: host operations, the projection region,
  host reshapes, the attention region, a host reshape, the output-projection region, a final host reshape.  The launch
  over those segments ends with every unscoped buffer at the last boundary's contents; read at the result buffer
  this names the result, read at the three arguments it gives them back unchanged.
-/
import proofs.«170127_j31112743092498_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents there and the three arguments as launched. -/
theorem run_result : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.RunValue

end
-- ==== Proof.LibLeadAxes.lean ====
/-
  Layout operations on the two leading axes of a rank-3 array, read at an index given by coordinates.

  • Flattening `[A, B, C]` to `[A·B, C]` (the rows of a stack of matrices laid one after another) reads, at `(R, c)` with
    `R = a·B + b`, the operand at `(a, b, c)`; un-flattening reads the other way. Both are the row-major position
    `(a·B + b)·C + c` spelt in two ways.
  • A slice along axis 0 from offset `o` reads, at `(u, k, e)`, the operand at `(o + u, k, e)`.
  Stated over `ixN` coordinates of literal `Fin` types so that they apply to a printed operation by unification.
-/
import Idealize.ShloMosaic.Lib.Pipeline.Value
import Idealize.ShloMosaic.Lib.ValueIdx

namespace Idealize.ShloMosaic.LeadAxes

open Idealize.ShloMosaic Idealize.ShloMosaic.ValueIdx

variable {α : Type}

/-- `[A, B, C]` flattened to `[n, C]` (`n = A·B`): at `(R, c)` with `R = a·B + b` it is the operand at `(a, b, c)`. -/
theorem shapeCast_merge_apply {A B C n : ℕ} (x : (⟨3, ![A, B, C]⟩ : Shape).Idx → α)
    (h : (⟨3, ![A, B, C]⟩ : Shape).ShapeCasts ⟨2, ![n, C]⟩) (a : Fin A) (b : Fin B) (c : Fin C) (R : Fin n)
    (hR : R.val = a.val * B + b.val) : shapeCast ⟨2, ![n, C]⟩ x h (ix2 R c) = x (ix3 a b c) :=
  shapeCast_apply x h _ _ (by
    rw [Shape.rowMajor_val_three, Shape.rowMajor_val_two]
    show (a.val * B + b.val) * C + c.val = R.val * C + c.val
    rw [hR])

/-- `[n, C]` un-flattened to `[A, B, C]` (`n = A·B`): at `(a, b, c)` it is the operand at `(R, c)` with `R = a·B + b`. -/
theorem shapeCast_split_apply {A B C n : ℕ} (x : (⟨2, ![n, C]⟩ : Shape).Idx → α)
    (h : (⟨2, ![n, C]⟩ : Shape).ShapeCasts ⟨3, ![A, B, C]⟩) (a : Fin A) (b : Fin B) (c : Fin C) (R : Fin n)
    (hR : R.val = a.val * B + b.val) : shapeCast ⟨3, ![A, B, C]⟩ x h (ix3 a b c) = x (ix2 R c) :=
  shapeCast_apply x h _ _ (by
    rw [Shape.rowMajor_val_three, Shape.rowMajor_val_two]
    show R.val * C + c.val = (a.val * B + b.val) * C + c.val
    rw [hR])

/-- A rank-3 array cut along axis 0 from `o` reads, at `(u, k, e)`, the source at `(b, k, e)` with `b = o + u`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (u : Fin m) (k : Fin n1) (e : Fin n2) (b : Fin n0) (hb : b.val = o + u.val) :
    extractStridedSlice ⟨3, ![m, n1, n2]⟩ ![o, 0, 0] X h (ix3 u k e) = X (ix3 b k e) :=
  extractStridedSlice_apply _ _ _ _ _ (fun ax => by
    match ax with
    | ⟨0, _⟩ => exact hb
    | ⟨1, _⟩ => exact (Nat.zero_add _).symm
    | ⟨2, _⟩ => exact (Nat.zero_add _).symm)

end Idealize.ShloMosaic.LeadAxes
-- ==== Proof.Glue.lean ====
/-
  The host operations between the kernel's three regions, read at an index.

  Between its regions the program only re-lays arrays out: the input [2, 2048, 1024] is flattened to [4096, 1024] rows,
  the two weight arrays change format (the identity on extended reals), the three projected arrays
  [2, 16, 2048, 64] are flattened to [32, 2048, 64] (batch and head merged), the attention output is un-flattened
  again, and the final [4096, 1024] rows are un-flattened to [2, 2048, 1024].  A flattening of the two leading axes
  [A, B, …] to [A·B, …] reads, at leading coordinate R = a·B + b, the operand at (a, b, …): both are the same row-major
  position.  Each statement below says what one buffer holds at a segment boundary in terms of the previous boundary.
-/
import proofs.«170127_j31112743092498_2_alg».proof.Proof.Gen.KernelIdeal.Frame
import proofs.«170127_j31112743092498_2_alg».proof.Proof.LibLeadAxes
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem
open Idealize.ShloMosaic.StableHlo Idealize.ShloMosaic.LeadAxes

/-! ## Merging and splitting the two leading axes of a rank-4 array -/

section Casts
variable {α : Type}

/-- `[A, B, C, D]` flattened to `[n, C, D]` (`n = A·B`): at `(R, c, d)` with `R = a·B + b` it is the operand at
    `(a, b, c, d)`. -/
theorem shapeCast_merge4_apply {A B C D n : ℕ} (x : (⟨4, ![A, B, C, D]⟩ : Shape).Idx → α)
    (h : (⟨4, ![A, B, C, D]⟩ : Shape).ShapeCasts ⟨3, ![n, C, D]⟩) (a : Fin A) (b : Fin B) (c : Fin C) (d : Fin D)
    (R : Fin n) (hR : R.val = a.val * B + b.val) : shapeCast ⟨3, ![n, C, D]⟩ x h (ix3 R c d) = x (ix4 a b c d) :=
  shapeCast_apply x h _ _ (by
    rw [Shape.rowMajor_val_four, Shape.rowMajor_val_three]
    show ((a.val * B + b.val) * C + c.val) * D + d.val = (R.val * C + c.val) * D + d.val
    rw [hR])

/-- `[n, C, D]` un-flattened to `[A, B, C, D]` (`n = A·B`): at `(a, b, c, d)` it is the operand at `(R, c, d)` with
    `R = a·B + b`. -/
theorem shapeCast_split4_apply {A B C D n : ℕ} (x : (⟨3, ![n, C, D]⟩ : Shape).Idx → α)
    (h : (⟨3, ![n, C, D]⟩ : Shape).ShapeCasts ⟨4, ![A, B, C, D]⟩) (a : Fin A) (b : Fin B) (c : Fin C) (d : Fin D)
    (R : Fin n) (hR : R.val = a.val * B + b.val) : shapeCast ⟨4, ![A, B, C, D]⟩ x h (ix4 a b c d) = x (ix3 R c d) :=
  shapeCast_apply x h _ _ (by
    rw [Shape.rowMajor_val_four, Shape.rowMajor_val_three]
    show (R.val * C + c.val) * D + d.val = ((a.val * B + b.val) * C + c.val) * D + d.val
    rw [hR])

end Casts

variable (m : (ℓ : Loc nD τ sig) → Buf (Elt Ideal) ℓ) (ρ : Dev nD → PrngReg) (c : Dev nD)

/-! ## Entry of region 0: the flattened input and the two weight arrays -/

/-- Row `R` of the flattened input is token `R % 2048` of batch `R / 2048`. -/
theorem W1_main_v2 (R : Fin 4096) (d : Fin 1024) :
    W1 m ρ c (Proc.devRef .tc main_v2) (ix2 R d)
      = m ((c : Thread nD τ).loc main_arg0)
          (ix3 (⟨R.val / 2048, by omega⟩ : Fin 2) (⟨R.val % 2048, by omega⟩ : Fin 2048) d) := by
  have h : W1 m ρ c (Proc.devRef .tc main_v2)
      = shapeCast S4096x1024 (W0 m ρ c (Proc.devRef .tc main_arg0)) (by decide) := by
    show StableHlo.after hostOps0 _ _ = _
    after_results
    rfl
  rw [h]
  show shapeCast S4096x1024 (W0 m ρ c (Proc.devRef .tc main_arg0)) _ (ix2 R d)
    = W0 m ρ c (Proc.devRef .tc main_arg0) (ix3 (⟨R.val / 2048, by omega⟩ : Fin 2) (⟨R.val % 2048, by omega⟩ : Fin 2048) d)
  exact shapeCast_merge_apply _ _ (⟨R.val / 2048, by omega⟩ : Fin 2) (⟨R.val % 2048, by omega⟩ : Fin 2048) d R
    (by show R.val = R.val / 2048 * 2048 + R.val % 2048; omega)

/-- The fused projection weights enter region 0 as launched (the format change is the identity). -/
theorem W1_main_v0 (i : S3072x1024.Idx) :
    W1 m ρ c (Proc.devRef .tc main_v0) i = m ((c : Thread nD τ).loc main_arg1) i := by
  show StableHlo.after hostOps0 (W0 m ρ c) (Proc.devRef .tc main_v0) i = _
  after_results
  rfl

/-- The output projection weights are, after the first stretch, as launched (the format change is the identity). -/
theorem W1_main_v1 (i : S1024x1024.Idx) :
    W1 m ρ c (Proc.devRef .tc main_v1) i = m ((c : Thread nD τ).loc main_arg2) i := by
  show StableHlo.after hostOps0 (W0 m ρ c) (Proc.devRef .tc main_v1) i = _
  after_results
  rfl

/-! ## Entry of region 1: batch and head merged -/

/-- Group `g` of the flattened queries is head `g % 16` of batch `g / 16`. -/
theorem W3_main_v4 (g : Fin 32) (t : Fin 2048) (d : Fin 64) :
    W3 m ρ c (Proc.devRef .tc main_v4) (ix3 g t d)
      = W2 m ρ c (Proc.devRef .tc main_v3_0)
          (ix4 (⟨g.val / 16, by omega⟩ : Fin 2) (⟨g.val % 16, by omega⟩ : Fin 16) t d) := by
  have h : W3 m ρ c (Proc.devRef .tc main_v4)
      = shapeCast S32x2048x64 (W2 m ρ c (Proc.devRef .tc main_v3_0)) (by decide) := by
    show StableHlo.after hostOps1 _ _ = _
    after_results
    rfl
  rw [h]
  exact shapeCast_merge4_apply _ _ (⟨g.val / 16, by omega⟩ : Fin 2) (⟨g.val % 16, by omega⟩ : Fin 16) t d g
    (by show g.val = g.val / 16 * 16 + g.val % 16; omega)

/-- The same for the keys. -/
theorem W3_main_v5 (g : Fin 32) (t : Fin 2048) (d : Fin 64) :
    W3 m ρ c (Proc.devRef .tc main_v5) (ix3 g t d)
      = W2 m ρ c (Proc.devRef .tc main_v3_1)
          (ix4 (⟨g.val / 16, by omega⟩ : Fin 2) (⟨g.val % 16, by omega⟩ : Fin 16) t d) := by
  have h : W3 m ρ c (Proc.devRef .tc main_v5)
      = shapeCast S32x2048x64 (W2 m ρ c (Proc.devRef .tc main_v3_1)) (by decide) := by
    show StableHlo.after hostOps1 _ _ = _
    after_results
    rfl
  rw [h]
  exact shapeCast_merge4_apply _ _ (⟨g.val / 16, by omega⟩ : Fin 2) (⟨g.val % 16, by omega⟩ : Fin 16) t d g
    (by show g.val = g.val / 16 * 16 + g.val % 16; omega)

/-- The same for the values. -/
theorem W3_main_v6 (g : Fin 32) (t : Fin 2048) (d : Fin 64) :
    W3 m ρ c (Proc.devRef .tc main_v6) (ix3 g t d)
      = W2 m ρ c (Proc.devRef .tc main_v3_2)
          (ix4 (⟨g.val / 16, by omega⟩ : Fin 2) (⟨g.val % 16, by omega⟩ : Fin 16) t d) := by
  have h : W3 m ρ c (Proc.devRef .tc main_v6)
      = shapeCast S32x2048x64 (W2 m ρ c (Proc.devRef .tc main_v3_2)) (by decide) := by
    show StableHlo.after hostOps1 _ _ = _
    after_results
    rfl
  rw [h]
  exact shapeCast_merge4_apply _ _ (⟨g.val / 16, by omega⟩ : Fin 2) (⟨g.val % 16, by omega⟩ : Fin 16) t d g
    (by show g.val = g.val / 16 * 16 + g.val % 16; omega)

/-! ## Entry of region 2: batch and head split again; the output weights carried through -/

/-- Head `h` of batch `b` of the attention output is group `16 b + h`. -/
theorem W5_main_v8 (b : Fin 2) (h : Fin 16) (t : Fin 2048) (d : Fin 64) :
    W5 m ρ c (Proc.devRef .tc main_v8) (ix4 b h t d)
      = W4 m ρ c (Proc.devRef .tc main_v7) (ix3 (⟨16 * b.val + h.val, by omega⟩ : Fin 32) t d) := by
  have e : W5 m ρ c (Proc.devRef .tc main_v8)
      = shapeCast S2x16x2048x64 (W4 m ρ c (Proc.devRef .tc main_v7)) (by decide) := by
    show StableHlo.after hostOps2 _ _ = _
    after_results
    rfl
  rw [e]
  exact shapeCast_split4_apply _ _ b h t d _ (by show 16 * b.val + h.val = b.val * 16 + h.val; omega)

/-- The output projection weights reach region 2 as launched: written by the first stretch, by nothing after. -/
theorem W5_main_v1 (i : S1024x1024.Idx) :
    W5 m ρ c (Proc.devRef .tc main_v1) i = m ((c : Thread nD τ).loc main_arg2) i := by
  have e5 : W5 m ρ c (Proc.devRef .tc main_v1) = W4 m ρ c (Proc.devRef .tc main_v1) := by
    show StableHlo.after hostOps2 _ _ = _
    after_results
  have e4 : W4 m ρ c (Proc.devRef .tc main_v1) = W3 m ρ c (Proc.devRef .tc main_v1) :=
    W4_of_ne m ρ c main_v1 (by decide)
  have e3 : W3 m ρ c (Proc.devRef .tc main_v1) = W2 m ρ c (Proc.devRef .tc main_v1) := by
    show StableHlo.after hostOps1 _ _ = _
    after_results
  have e2 : W2 m ρ c (Proc.devRef .tc main_v1) = W1 m ρ c (Proc.devRef .tc main_v1) :=
    W2_of_ne m ρ c main_v1 (by decide)
  rw [e5, e4, e3, e2]
  exact W1_main_v1 m ρ c i

/-! ## The result: the rows un-flattened -/

/-- Token `t` of batch `b` of the result is row `2048 b + t`. -/
theorem W7_main_v10 (b : Fin 2) (t : Fin 2048) (e : Fin 1024) :
    W7 m ρ c (Proc.devRef .tc main_v10) (ix3 b t e)
      = W6 m ρ c (Proc.devRef .tc main_v9) (ix2 (⟨2048 * b.val + t.val, by omega⟩ : Fin 4096) e) := by
  have h : W7 m ρ c (Proc.devRef .tc main_v10)
      = shapeCast S2x2048x1024 (W6 m ρ c (Proc.devRef .tc main_v9)) (by decide) := by
    show StableHlo.after hostOps3 _ _ = _
    after_results
    rfl
  rw [h]
  exact shapeCast_split_apply _ _ b t e _ (by show 2048 * b.val + t.val = b.val * 2048 + t.val; omega)

end Cert.KernelIdeal.Glue

end
-- ==== Proof.Spec.lean ====
/-
  The mathematics both programs compute, stated once over the extended reals, index by index.

  Inputs: x : [2, 2048, 1024] (batch, token, model), Wqkv : [3072, 1024], Wo : [1024, 1024], weights stored
  [out, in].  One fused projection  qkv(b, t, e) = ∑_d x(b, t, d) · Wqkv(e, d)  holds queries, keys and values side
  by side: part s ∈ {0, 1, 2} (q, k, v), head h < 16 and lane d < 64 sit at column 1024 s + 64 h + d.
  Per (batch, head, query token) the scores against all 2048 key tokens are  (∑_d q · k) · 1/8 ; the row maximum is
  subtracted, the exponential taken, and the row normalised by its sum.  The two programs differ only in WHERE they
  divide by that sum: one divides the weighted sum of values once (`attnK`), the other divides every weight before
  summing (`attnR`).  The head outputs, laid side by side again (column 64 h + d), meet Woᵀ.
-/
import Idealize.ShloMosaic.PureOps.Ideal
import Idealize.ShloMosaic.Lib.ValueIdx

noncomputable section

namespace Cert.Attn

open Idealize.ShloMosaic Idealize.ShloMosaic.ValueIdx

abbrev SX : Shape := ⟨3, ![2, 2048, 1024]⟩
abbrev SWqkv : Shape := ⟨2, ![3072, 1024]⟩
abbrev SWo : Shape := ⟨2, ![1024, 1024]⟩

/-- An array in head layout: (batch, head, token, lane). -/
abbrev Heads : Type := Fin 2 → Fin 16 → Fin 2048 → Fin 64 → EReal

/-- Column of part `s` (0 = q, 1 = k, 2 = v), head `h`, lane `d` in the fused projection. -/
def col (s : Fin 3) (h : Fin 16) (d : Fin 64) : Fin 3072 := ⟨1024 * s.val + 64 * h.val + d.val, by omega⟩

/-- Head of a merged column. -/
def headOf (j : Fin 1024) : Fin 16 := ⟨j.val / 64, by omega⟩
/-- Lane of a merged column. -/
def laneOf (j : Fin 1024) : Fin 64 := ⟨j.val % 64, by omega⟩

/-- The score scale 1/8, as the f32 word both programs carry. -/
def scale : EReal := Ideal.ofBits .f32 0x3E000000#32

/-! ## Attention on given queries, keys and values -/

section core
variable (q k v : Heads)

/-- Scaled score of query token `tq` against key token `tk`. -/
def score (b : Fin 2) (h : Fin 16) (tq tk : Fin 2048) : EReal :=
  (∑ d : Fin 64, q b h tq d * k b h tk d) * scale

/-- The row maximum of the scores (the fold of `max` from -∞ over the key tokens). -/
def rowMax (b : Fin 2) (h : Fin 16) (tq : Fin 2048) : EReal :=
  (Finset.univ : Finset (Fin 2048)).fold max ⊥ (fun tk => score q k b h tq tk)

/-- The unnormalised softmax weight. -/
def wexp (b : Fin 2) (h : Fin 16) (tq tk : Fin 2048) : EReal :=
  Ideal.exp (score q k b h tq tk - rowMax q k b h tq)

/-- The normaliser: the row sum of the weights. -/
def denom (b : Fin 2) (h : Fin 16) (tq : Fin 2048) : EReal :=
  ∑ tk : Fin 2048, wexp q k b h tq tk

/-- Attention output, dividing the weighted sum of values ONCE. -/
def attnK : Heads := fun b h tq d =>
  Ideal.div (∑ tk : Fin 2048, wexp q k b h tq tk * v b h tk d) (denom q k b h tq)

/-- Attention output, dividing EVERY weight before the sum. -/
def attnR : Heads := fun b h tq d =>
  ∑ tk : Fin 2048, Ideal.div (wexp q k b h tq tk) (denom q k b h tq) * v b h tk d

end core

/-! ## The projections around it -/

section
variable (x : SX.Idx → EReal) (wqkv : SWqkv.Idx → EReal) (wo : SWo.Idx → EReal)

/-- One entry of the fused projection x · Wqkvᵀ. -/
def proj (b : Fin 2) (t : Fin 2048) (e : Fin 3072) : EReal :=
  ∑ d : Fin 1024, x (ix3 b t d) * wqkv (ix2 e d)

/-- Part `s` of the projection in head layout: entry (b, h, t, d). -/
def part (s : Fin 3) : Heads := fun b h t d => proj x wqkv b t (col s h d)

/-- The output projection of head-merged rows `a`: entry (b, t, e) is ∑_j a(b, head j, t, lane j) · Wo(e, j). -/
def outProj (a : Heads) (b : Fin 2) (t : Fin 2048) (e : Fin 1024) : EReal :=
  ∑ j : Fin 1024, a b (headOf j) t (laneOf j) * wo (ix2 e j)

/-- The whole layer, dividing once. -/
def outK : SX.Idx → EReal := fun i =>
  outProj wo (attnK (part x wqkv 0) (part x wqkv 1) (part x wqkv 2)) (i 0) (i 1) (i 2)

/-- The whole layer, dividing every weight. -/
def outR : SX.Idx → EReal := fun i =>
  outProj wo (attnR (part x wqkv 0) (part x wqkv 1) (part x wqkv 2)) (i 0) (i 1) (i 2)

end

end Cert.Attn

end
-- ==== Proof.AttnRow.lean ====
/-
  Attention of ONE query row against one head's keys and values: what a kernel computes per row of a query tile.
  The head-layout functions of the specification are these, row by row.
-/
import proofs.«170127_j31112743092498_2_alg».proof.Proof.Spec

noncomputable section

namespace Cert.Attn

open Idealize.ShloMosaic

section row
variable (qr : Fin 64 → EReal) (K V : Fin 2048 → Fin 64 → EReal)

/-- The row's scaled score against key token `tk`. -/
def rScore (tk : Fin 2048) : EReal := (∑ d : Fin 64, qr d * K tk d) * scale
/-- The row's maximum score. -/
def rMax : EReal := (Finset.univ : Finset (Fin 2048)).fold max ⊥ (fun tk => rScore qr K tk)
/-- The row's unnormalised weights. -/
def rW (tk : Fin 2048) : EReal := Ideal.exp (rScore qr K tk - rMax qr K)
/-- The row's normaliser. -/
def rDen : EReal := ∑ tk : Fin 2048, rW qr K tk
/-- The row's output at lane `d`: the weighted sum of values divided once by the normaliser. -/
def rOut (d : Fin 64) : EReal := Ideal.div (∑ tk : Fin 2048, rW qr K tk * V tk d) (rDen qr K)

end row

/-- The head-layout attention is the row attention of each query row against its head's keys and values. -/
theorem attnK_row (q k v : Heads) (b : Fin 2) (h : Fin 16) (tq : Fin 2048) (d : Fin 64) :
    attnK q k v b h tq d = rOut (q b h tq) (k b h) (v b h) d := rfl

end Cert.Attn

end
-- ==== Proof.Compose.lean ====
/-
  The three regions and the reshapes between them compose to the whole layer.
  Stated over abstract arrays related by the equations each stage provides: the flattened input and the converted
  weights (region 0's operands), the three head-layout projections (its results), their [32, 2048, 64] slabs (region 1's
  operands), the attention slabs (its result), their head layout (region 2's operand), the flat output rows (its
  result) and the final reshape.  Row R of a flattened [4096, ·] array is batch R / 2048, token R % 2048; slab g of
  a [32, ·, ·] array is batch g / 16, head g % 16.
-/
import proofs.«170127_j31112743092498_2_alg».proof.Proof.AttnRow

noncomputable section

namespace Cert.Attn

open Idealize.ShloMosaic Idealize.ShloMosaic.ValueIdx

abbrev S4 : Shape := ⟨4, ![2, 16, 2048, 64]⟩
abbrev S3 : Shape := ⟨3, ![32, 2048, 64]⟩
abbrev SFlat : Shape := ⟨2, ![4096, 1024]⟩

/-- One head-layout projection from the flattened input `A2` and the weights `A0`: part `s`. -/
def projFlat (s : Fin 3) (A2 : SFlat.Idx → EReal) (A0 : SWqkv.Idx → EReal) : S4.Idx → EReal := fun i =>
  ∑ d : Fin 1024, A2 (ix2 (⟨2048 * (i 0).val + (i 2).val, by have h0 : (i 0).val < 2 := (i 0).isLt; have h2 : (i 2).val < 2048 := (i 2).isLt; omega⟩ : Fin 4096) d)
    * A0 (ix2 (col s (i 1) (i 3)) d)

/-- The attention slabs from the query, key and value slabs. -/
def attnSlabs (Q K W : S3.Idx → EReal) : S3.Idx → EReal := fun i =>
  rOut (fun e => Q (ix3 (i 0) (i 1) e)) (fun tk e => K (ix3 (i 0) tk e)) (fun tk e => W (ix3 (i 0) tk e)) (i 2)

/-- The flat output rows from the head-layout attention output `O8` and the weights `A1`. -/
def outFlat (O8 : S4.Idx → EReal) (A1 : SWo.Idx → EReal) : SFlat.Idx → EReal := fun i =>
  ∑ j : Fin 1024, O8 (ix4 (⟨(i 0).val / 2048, by have h0 : (i 0).val < 4096 := (i 0).isLt; omega⟩ : Fin 2) (headOf j)
      (⟨(i 0).val % 2048, Nat.mod_lt _ (by norm_num)⟩ : Fin 2048) (laneOf j)) * A1 (ix2 (i 1) j)

theorem compose (X : SX.Idx → EReal) (Wq : SWqkv.Idx → EReal) (Wo : SWo.Idx → EReal)
    (A2 : SFlat.Idx → EReal) (A0 : SWqkv.Idx → EReal) (A1 : SWo.Idx → EReal)
    (P : Fin 3 → S4.Idx → EReal) (Sl : Fin 3 → S3.Idx → EReal)
    (O7 : S3.Idx → EReal) (O8 : S4.Idx → EReal) (O9 : SFlat.Idx → EReal) (O10 : SX.Idx → EReal)
    (hA2 : ∀ (R : Fin 4096) (d : Fin 1024), A2 (ix2 R d)
        = X (ix3 (⟨R.val / 2048, by have := R.isLt; omega⟩ : Fin 2) (⟨R.val % 2048, Nat.mod_lt _ (by norm_num)⟩ : Fin 2048) d))
    (hA0 : ∀ i, A0 i = Wq i) (hA1 : ∀ i, A1 i = Wo i)
    (hP : ∀ s, P s = projFlat s A2 A0)
    (hSl : ∀ s (g : Fin 32) (t : Fin 2048) (d : Fin 64), Sl s (ix3 g t d)
        = P s (ix4 (⟨g.val / 16, by have := g.isLt; omega⟩ : Fin 2) (⟨g.val % 16, Nat.mod_lt _ (by norm_num)⟩ : Fin 16) t d))
    (hO7 : O7 = attnSlabs (Sl 0) (Sl 1) (Sl 2))
    (hO8 : ∀ (b : Fin 2) (h : Fin 16) (t : Fin 2048) (d : Fin 64), O8 (ix4 b h t d)
        = O7 (ix3 (⟨16 * b.val + h.val, by have := b.isLt; have := h.isLt; omega⟩ : Fin 32) t d))
    (hO9 : O9 = outFlat O8 A1)
    (hO10 : ∀ (b : Fin 2) (t : Fin 2048) (e : Fin 1024), O10 (ix3 b t e)
        = O9 (ix2 (⟨2048 * b.val + t.val, by have := b.isLt; have := t.isLt; omega⟩ : Fin 4096) e)) :
    O10 = outK X Wq Wo := by
  -- the projections in head layout are the specification's parts
  have hpart : ∀ s (b : Fin 2) (h : Fin 16) (t : Fin 2048) (d : Fin 64), P s (ix4 b h t d) = part X Wq s b h t d := by
    intro s b h t d
    rw [hP s]
    show (∑ e : Fin 1024, A2 (ix2 (⟨2048 * b.val + t.val, _⟩ : Fin 4096) e) * A0 (ix2 (col s h d) e)) = _
    unfold part proj
    refine Finset.sum_congr rfl fun e _ => ?_
    rw [hA2, hA0]
    refine congrArg₂ (· * ·) (congrArg X ?_) rfl
    have hb := b.isLt; have ht := t.isLt
    funext a; apply Fin.ext
    match a with
    | ⟨0, _⟩ => show (2048 * b.val + t.val) / 2048 = b.val; omega
    | ⟨1, _⟩ => show (2048 * b.val + t.val) % 2048 = t.val; omega
    | ⟨2, _⟩ => rfl
  -- a slab entry is the part at its batch and head
  have hslab : ∀ s (b : Fin 2) (h : Fin 16) (t : Fin 2048) (d : Fin 64),
      Sl s (ix3 (⟨16 * b.val + h.val, by have := b.isLt; have := h.isLt; omega⟩ : Fin 32) t d) = part X Wq s b h t d := by
    intro s b h t d
    rw [hSl, ← hpart s b h t d]
    refine congrArg (P s) ?_
    have hb := b.isLt; have hh := h.isLt
    funext a; apply Fin.ext
    match a with
    | ⟨0, _⟩ => show (16 * b.val + h.val) / 16 = b.val; omega
    | ⟨1, _⟩ => show (16 * b.val + h.val) % 16 = h.val; omega
    | ⟨2, _⟩ => rfl
    | ⟨3, _⟩ => rfl
  -- the attention output in head layout
  have hattn : ∀ (b : Fin 2) (h : Fin 16) (t : Fin 2048) (d : Fin 64),
      O8 (ix4 b h t d) = attnK (part X Wq 0) (part X Wq 1) (part X Wq 2) b h t d := by
    intro b h t d
    rw [hO8, hO7, attnK_row]
    show rOut _ _ _ d = rOut _ _ _ d
    congr 1
    · funext e; exact hslab 0 b h t e
    · funext tk e; exact hslab 1 b h tk e
    · funext tk e; exact hslab 2 b h tk e
  funext i
  obtain ⟨b, t, e, rfl⟩ : ∃ (b : Fin 2) (t : Fin 2048) (e : Fin 1024), i = ix3 b t e := ⟨i 0, i 1, i 2, eq_ix3 i⟩
  rw [hO10, hO9]
  show (∑ j : Fin 1024, O8 (ix4 (⟨(2048 * b.val + t.val) / 2048, _⟩ : Fin 2) (headOf j)
      (⟨(2048 * b.val + t.val) % 2048, _⟩ : Fin 2048) (laneOf j)) * A1 (ix2 e j)) = _
  unfold outK outProj
  refine Finset.sum_congr rfl fun j _ => ?_
  rw [hA1, ← hattn]
  refine congrArg₂ (· * ·) (congrArg O8 ?_) rfl
  have hb := b.isLt; have ht := t.isLt
  funext a; apply Fin.ext
  match a with
  | ⟨0, _⟩ => show (2048 * b.val + t.val) / 2048 = b.val; omega
  | ⟨1, _⟩ => rfl
  | ⟨2, _⟩ => show (2048 * b.val + t.val) % 2048 = t.val; omega
  | ⟨3, _⟩ => rfl

end Cert.Attn

end
-- ==== Proof.LibNtMatmul.lean ====
/-
  A matrix product with the right operand contracted on its LAST axis, read at an index, at the ideal values.

  For the dimension numbers of the product of an `M × K` matrix by the transpose of an `N × K` matrix (contract axis 1
  of both operands, no batch axis), the product accumulated into the zero matrix is, at row `r` and column `e`, the sum
  over `k < K` of `lhs (r, k) * rhs (e, k)` on the extended reals, whatever float formats label the two operands (every
  format is the extended reals there). Stated over literal-size coordinates (`ix2 r e`) so that it applies to a printed
  product by unification; a printed record of dimension numbers with the lists [1], [1], [0], [0], [], [] is
  `DotDims.transposedRhs M K N` up to the proof of its well-formedness, which is irrelevant.
-/
import Idealize.ShloMosaic.Lib.ValueIdx
import Idealize.ShloMosaic.PureOps.Ideal.Laws

noncomputable section

namespace Idealize.ShloMosaic.NtMatmul

open Idealize.ShloMosaic Idealize.ShloMosaic.ValueIdx

/-- The contraction shape has one axis, of extent `K`. -/
theorem contr_rank (M K N : ℕ) : (DotDims.transposedRhs M K N).contr.rank = 1 := rfl

theorem contr_size (M K N : ℕ) : (DotDims.transposedRhs M K N).contr.size ⟨0, by rw [contr_rank]; exact Nat.one_pos⟩ = K := rfl

theorem lhs_val0 (M K N : ℕ) (j : (⟨2, ![M, N]⟩ : Shape).Idx) (q : (DotDims.transposedRhs M K N).contr.Idx) :
    ((DotDims.transposedRhs M K N).lhsIdx j q 0).val = (j 0).val := rfl
theorem lhs_val1 (M K N : ℕ) (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q
theorem rhs_val0 (M K N : ℕ) (j : (⟨2, ![M, N]⟩ : Shape).Idx) (q : (DotDims.transposedRhs M K N).contr.Idx) :
    ((DotDims.transposedRhs M K N).rhsIdx j q 0).val = (j 1).val := rfl
theorem rhs_val1 (M K N : ℕ) (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- At output `(r, e)` and contraction coordinate `k` the left operand is read at `(r, k)` and the right at `(e, k)`. -/
theorem lhsIdx_eq (M K N : ℕ) (r : Fin M) (e : Fin N) (k : Fin K) :
    (DotDims.transposedRhs M K N).lhsIdx (ix2 r e) ((contrEquiv1 (DotDims.transposedRhs M K N) K (contr_rank M K N) (contr_size M K N)).symm k) = ix2 r k := by
  have hk := contrEquiv1_symm_val (DotDims.transposedRhs M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.transposedRhs M K N).rhsIdx (ix2 r e) ((contrEquiv1 (DotDims.transposedRhs M K N) K (contr_rank M K N) (contr_size M K N)).symm k) = ix2 e k := by
  have hk := contrEquiv1_symm_val (DotDims.transposedRhs M K N) K (contr_rank M K N) (contr_size M K N) k
  funext a
  refine Fin.ext ?_
  match a with
  | ⟨0, _⟩ => exact rhs_val0 M K N _ _
  | ⟨1, _⟩ => exact (rhs_val1 M K N _ _).trans hk

/-- The product into the zero matrix, at `(r, e)`: the sum over the shared last axis of the operands' products. -/
theorem matmul_zero_apply_fmt {φ₁ φ₂ : FTy} (M K N : ℕ) (prec : Option ContractPrecision)
    (lhs : FVec Ideal ⟨2, ![M, K]⟩ φ₁) (rhs : FVec Ideal ⟨2, ![N, K]⟩ φ₂) (r : Fin M) (e : Fin N) :
    matmul (DotDims.transposedRhs M K N) prec lhs rhs (constant (F := Ideal) ⟨2, ![M, N]⟩ .f32 0x00000000#32) (ix2 r e)
      = ∑ k : Fin K, lhs (ix2 r k) * rhs (ix2 e k) := by
  show FloatOps.matmul (DotDims.transposedRhs M K N) prec lhs rhs (constant (F := Ideal) ⟨2, ![M, N]⟩ .f32 0x00000000#32) (ix2 r e) = _
  rw [Ideal.matmul_constant_zero_apply, ← Equiv.sum_comp (contrEquiv1 (DotDims.transposedRhs M K N) K (contr_rank M K N) (contr_size M K N)).symm]
  refine Finset.sum_congr rfl fun k _ => ?_
  rw [lhsIdx_eq, rhsIdx_eq]

end Idealize.ShloMosaic.NtMatmul

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibPlainMatmulFmt.lean ====
/-
  A plain matrix product read at an index, for operands of any float formats.

  At the ideal values every float format is the extended reals, so the product of an `M × K` matrix by a `K × N`
  matrix accumulated into the zero matrix is, at row `r` and column `e`, the sum over `k < K` of
  `lhs (r, k) * rhs (k, e)` whatever formats label the two operands (a kernel that narrows its operands to a
  16-bit format before the product is read by this form).
-/
import proofs.«170127_j31112743092498_2_alg».proof.Proof.LibPlainMatmul

noncomputable section

namespace Idealize.ShloMosaic.PlainMatmul

open Idealize.ShloMosaic Idealize.ShloMosaic.ValueIdx

/-- A plain product of operands of formats `φ₁`, `φ₂` into the zero matrix, at `(r, e)`: the sum over the inner axis
    of the operands' products. -/
theorem matmul_zero_apply_fmt {φ₁ φ₂ : FTy} (M K N : ℕ) (prec : Option ContractPrecision)
    (lhs : FVec Ideal ⟨2, ![M, K]⟩ φ₁) (rhs : FVec Ideal ⟨2, ![K, N]⟩ φ₂) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibKeepdims.lean ====
/-
  Column ("keepdims") layout operations read at an index given by coordinates.

  A reduction along the last axis of a matrix that keeps the reduced axis as a unit axis is printed as a shape cast of
  the `[a]` result to `[a, 1]` followed, where it is used against the matrix again, by a broadcast of the `[a, 1]`
  column to `[a, b]`. Both operations read the operand at the row of the index: the cast ignores the unit coordinate and
  the broadcast ignores the column coordinate. Stated over literal-size coordinates (`ix1`, `ix2`) so that a lemma
  applies to a printed operation by unification.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region1Pay.lean ====
/-
  The attention kernel's body at an index.  From a query tile `x0` : [1, 512, 64] and a head's keys `x1` and values
  `x2` : [1, 2048, 64] the body stores, at row `r` and lane `d`, the row attention of query row `r`:
  scores = (x0 · x1ᵀ) · 1/8, their row maximum subtracted, the exponential, the row sum, the weighted sum of the
  values (a second product), divided once by the row sum.
-/
import proofs.«170127_j31112743092498_2_alg».proof.Proof.Gen.KernelIdeal.Skeleton
import proofs.«170127_j31112743092498_2_alg».proof.Proof.AttnRow
import proofs.«170127_j31112743092498_2_alg».proof.Proof.LibNtMatmul
import proofs.«170127_j31112743092498_2_alg».proof.Proof.LibPlainMatmulFmt
import proofs.«170127_j31112743092498_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.ValueIdx

/-- The coordinate inserted by a row reduction of a [512, 2048] matrix: row `r`, column `k`. -/
theorem lift_row (h : Shape.Reduces S512x2048 [1] S512) (r : Fin 512) (k : Fin 2048) :
    h.lift (ix1 r) k = ix2 r k := by
  funext a; apply Fin.ext
  match a with
  | ⟨0, _⟩ => rfl
  | ⟨1, _⟩ => rfl

/-- The f32 word of -∞ is the bottom of the extended reals. -/
theorem ofBits_neg_inf : Ideal.ofBits .f32 0xFF800000#32 = (⊥ : EReal) := by
  simp [Ideal.ofBits, Ideal.ieee]

/-- A row of weights: the exponential of a score matrix less its row maximum, kept as a column and spread back. -/
theorem weight_apply (s : FVec Ideal S512x2048 .f32) (hφ : FKind.Formats .f32)
    (hacc : (0xFF800000#32 : BitVec 32) = FKind.maximumf.neutral .f32 hφ) (r : Fin 512) (k : Fin 2048) :
    exp (subf s (broadcastTo S512x2048
        (shapeCast S512x1 (multiReduction .maximumf [1] S512 s 0xFF800000#32 reduces_S512x2048_S512 hφ hacc) shapeCasts_S512_S512x1)
        broadcasts_S512x1_S512x2048)) (ix2 r k)
      = Ideal.exp (s (ix2 r k) - (Finset.univ : Finset (Fin 2048)).fold max ⊥ (fun k' => s (ix2 r k'))) := by
  show Ideal.exp (s (ix2 r k) - broadcastTo S512x2048 _ broadcasts_S512x1_S512x2048 (ix2 r k)) = _
  refine congrArg (fun z => Ideal.exp (s (ix2 r k) - z)) ?_
  refine (broadcastTo_a1_ab_apply _ _ r k).trans ?_
  refine (shapeCast_a_a1_apply _ _ r 0).trans ?_
  refine (Ideal.multiReduction_maximumf_single s _ reduces_S512x2048_S512 hφ hacc (ix1 r)).trans ?_
  rw [show FloatOps.ofBits (F := Ideal) .f32 0xFF800000#32 = (⊥ : EReal) from ofBits_neg_inf]
  refine congrArg (fun f : Fin 2048 → EReal => (Finset.univ : Finset (Fin 2048)).fold max ⊥ f) ?_
  funext (k' : Fin 2048)
  exact congrArg s (lift_row reduces_S512x2048_S512 r k')

section
variable (x0 : Vec Ideal S1x512x64 .bf16) (x1 x2 : Vec Ideal S1x2048x64 .bf16)

/-- The tile's scaled score matrix. -/
def sc : FVec Ideal S512x2048 .f32 :=
  mulf (matmul dot_S512x64_S2048x64_S512x2048_1_1_0_0_n_n none
        (shapeCast S512x64 x0 shapeCasts_S1x512x64_S512x64 : FVec Ideal S512x64 .bf16)
        (shapeCast S2048x64 x1 shapeCasts_S1x2048x64_S2048x64 : FVec Ideal S2048x64 .bf16)
        (constant (F := Ideal) S512x2048 .f32 0x00000000#32))
      (broadcast S512x2048 (Scalar.ofBits (F := Ideal) .f32 0x3E000000#32 : Ideal .f32))

/-- The scaled scores of the tile: row `r` against key token `k`. -/
theorem sc_apply (r : Fin 512) (k : Fin 2048) :
    sc x0 x1 (ix2 r k) = Cert.Attn.rScore (fun e => x0 (ix3 0 r e)) (fun tk e => x1 (ix3 0 tk e)) k := by
  unfold sc
  refine (mulf_apply _ _ _).trans ?_
  refine congrArg₂ (· * ·) ?_ rfl
  refine (NtMatmul.matmul_zero_apply_fmt 512 64 2048 none _ _ r k).trans ?_
  refine Finset.sum_congr rfl fun e _ => ?_
  rw [shapeCast_1ab_ab_apply, shapeCast_1ab_ab_apply]

/-- The weight of key token `k` in row `r`. -/
theorem w_apply (hφ : FKind.Formats .f32) (hacc : (0xFF800000#32 : BitVec 32) = FKind.maximumf.neutral .f32 hφ)
    (r : Fin 512) (k : Fin 2048) :
    exp (subf (sc x0 x1) (broadcastTo S512x2048
        (shapeCast S512x1 (multiReduction .maximumf [1] S512 (sc x0 x1) 0xFF800000#32 reduces_S512x2048_S512 hφ hacc) shapeCasts_S512_S512x1)
        broadcasts_S512x1_S512x2048)) (ix2 r k)
      = Cert.Attn.rW (fun e => x0 (ix3 0 r e)) (fun tk e => x1 (ix3 0 tk e)) k := by
  refine (weight_apply (sc x0 x1) hφ hacc r k).trans ?_
  unfold Cert.Attn.rW Cert.Attn.rMax
  simp only [sc_apply]

/-- THE PAYLOAD AT AN INDEX: row `r`, lane `d` of what the body stores is the row attention of query row `r`. -/
theorem pay1_apply (r : Fin 512) (d : Fin 64) :
    k1_pay1 (F := Ideal) x0 x1 x2 (ix3 0 r d)
      = Cert.Attn.rOut (fun e => x0 (ix3 0 r e)) (fun tk e => x1 (ix3 0 tk e)) (fun tk e => x2 (ix3 0 tk e)) d := by
  unfold k1_pay1
  refine (shapeCast_ab_1ab_apply _ _ 0 r d).trans ?_
  unfold Cert.Attn.rOut
  refine congrArg₂ Ideal.div ?_ ?_
  · refine (PlainMatmul.matmul_zero_apply_fmt 512 2048 64 none _ _ r d).trans ?_
    refine Finset.sum_congr rfl fun k _ => ?_
    refine congrArg₂ (· * ·) ?_ ?_
    · exact w_apply x0 x1 _ _ r k
    · exact shapeCast_1ab_ab_apply _ _ k d
  · refine (broadcastTo_a1_ab_apply _ _ r d).trans ?_
    refine (shapeCast_a_a1_apply _ _ r 0).trans ?_
    refine (Ideal.multiReduction_add_single _ _ reduces_S512x2048_S512 _ _ (ix1 r)).trans ?_
    unfold Cert.Attn.rDen
    refine Finset.sum_congr rfl fun (k : Fin 2048) _ => ?_
    refine (congrArg _ (lift_row reduces_S512x2048_S512 r k)).trans ?_
    exact w_apply x0 x1 _ _ r k

end

end Cert.KernelIdeal.Reg1

end
-- ==== Proof.Region1.lean ====
/-
  The attention region's output array in closed form.  The grid is (32 batch·heads) × (4 query tiles of 512 tokens):
  point t = 4 g + i reads query tile i of slab g, the whole key and value slabs g, and writes output tile i of slab g.
  So entry (g, tok, d) of the output array is the row attention of query row (g, tok) against slab g's keys and values.
-/
import proofs.«170127_j31112743092498_2_alg».proof.Proof.Gen.KernelIdeal.Frame
import proofs.«170127_j31112743092498_2_alg».proof.Proof.Region1Pay

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)

/-- The output array as one function of the query, key and value arrays ([32, 2048, 64] each). -/
def G1 (Q K W : S32x2048x64.Idx → EReal) : S32x2048x64.Idx → EReal := fun i =>
  Cert.Attn.rOut (fun e => Q (ix3 (i 0) (i 1) e)) (fun tk e => K (ix3 (i 0) tk e)) (fun tk e => W (ix3 (i 0) tk e)) (i 2)

theorem hz3 : (![0, 0, 0] : Fin 3 → Nat) = fun _ => 0 := funext fun a => by fin_cases a <;> rfl

/-- The printed index maps over the 128 grid points: slab t / 4, tile t % 4 for the query and output windows, slab t / 4
    and the whole token axis for the key and value windows. -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

section
variable (V : (c : Dev nD) → (b : Ref sig .tc) → Buf (Elt Ideal) ((c : Thread nD τ).loc b)) (c : Dev nD)

/-- Where the query window's block at point `t` sits in its array. -/
theorem emb0 (t : Fin cfg1.N) (r : Fin 512) (e : Fin 64) (g : Fin 32) (tok : Fin 2048)
    (hg : g.val = t.val / 4) (htok : tok.val = 512 * (t.val % 4) + r.val) :
    (((cfg1.win 0).blk t).view.emb (ix3 (0 : Fin 1) r e) : S32x2048x64.Idx) = ix3 g tok e := by
  obtain ⟨e0, e1, e2, -⟩ := idx_facts1 t
  funext a; apply Fin.ext
  match a with
  | ⟨0, _⟩ => show win1_0.index t (0 : Fin 3) * 1 + 1 * 0 = g.val; omega
  | ⟨1, _⟩ => show win1_0.index t (1 : Fin 3) * 512 + 1 * r.val = tok.val; omega
  | ⟨2, _⟩ => show win1_0.index t (2 : Fin 3) * 64 + 1 * e.val = e.val; omega

/-- Where the key window's block at point `t` sits in its array. -/
theorem emb1 (t : Fin cfg1.N) (tk : Fin 2048) (e : Fin 64) (g : Fin 32) (hg : g.val = t.val / 4) :
    (((cfg1.win 1).blk t).view.emb (ix3 (0 : Fin 1) tk e) : S32x2048x64.Idx) = ix3 g tk e := by
  obtain ⟨-, -, -, e0, e1, e2, -⟩ := idx_facts1 t
  funext a; apply Fin.ext
  match a with
  | ⟨0, _⟩ => show win1_1.index t (0 : Fin 3) * 1 + 1 * 0 = g.val; omega
  | ⟨1, _⟩ => show win1_1.index t (1 : Fin 3) * 2048 + 1 * tk.val = tk.val; omega
  | ⟨2, _⟩ => show win1_1.index t (2 : Fin 3) * 64 + 1 * e.val = e.val; omega

/-- Where the value window's block at point `t` sits in its array. -/
theorem emb2 (t : Fin cfg1.N) (tk : Fin 2048) (e : Fin 64) (g : Fin 32) (hg : g.val = t.val / 4) :
    (((cfg1.win 2).blk t).view.emb (ix3 (0 : Fin 1) tk e) : S32x2048x64.Idx) = ix3 g tk e := by
  obtain ⟨-, -, -, -, -, -, e0, e1, e2, -⟩ := idx_facts1 t
  funext a; apply Fin.ext
  match a with
  | ⟨0, _⟩ => show win1_2.index t (0 : Fin 3) * 1 + 1 * 0 = g.val; omega
  | ⟨1, _⟩ => show win1_2.index t (1 : Fin 3) * 2048 + 1 * tk.val = tk.val; omega
  | ⟨2, _⟩ => show win1_2.index t (2 : Fin 3) * 64 + 1 * e.val = e.val; omega

/-- Where the output window's block at point `t` sits in its array. -/
theorem emb3 (t : Fin cfg1.N) (r : Fin 512) (d : Fin 64) (g : Fin 32) (tok : Fin 2048)
    (hg : g.val = t.val / 4) (htok : tok.val = 512 * (t.val % 4) + r.val) :
    (((cfg1.win 3).blk t).view.emb (ix3 (0 : Fin 1) r d) : S32x2048x64.Idx) = ix3 g tok d := by
  obtain ⟨-, -, -, -, -, -, -, -, -, e0, e1, e2⟩ := idx_facts1 t
  funext a; apply Fin.ext
  match a with
  | ⟨0, _⟩ => show win1_3.index t (0 : Fin 3) * 1 + 1 * 0 = g.val; omega
  | ⟨1, _⟩ => show win1_3.index t (1 : Fin 3) * 512 + 1 * r.val = tok.val; omega
  | ⟨2, _⟩ => show win1_3.index t (2 : Fin 3) * 64 + 1 * d.val = d.val; omega

/-- WHAT POINT `t` WRITES BACK is block `t` of `G1` of the arrays as the region finds them. -/
theorem flushed3_eq (t : Fin cfg1.N) :
    (dat1 (F := Ideal) V c).flushed 3 t
      = ((cfg1.win 3).blk t).view.read (Elt Ideal) (G1 (V c main_v4) (V c main_v5) (V c main_v6)) := by
  show (cfg1.win 3).cut (grid1.coords t) ((dat1 (F := Ideal) V c).after 3 t) = _
  rw [after1_3]
  unfold out1_3
  rw [View.canon_unit_zero hz3]
  simp only [View.ld_unit_zero (S := S1x512x64) hz3, View.ld_unit_zero (S := S1x2048x64) hz3]
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  have hN : cfg1.N = 128 := N_1
  have hg : (t.val / 4) < 32 := by have := t.isLt; omega
  have htok : 512 * (t.val % 4) + r.val < 2048 := by have := r.isLt; omega
  show k1_pay1 (F := Ideal) (iblk1 V c 0 t) (iblk1 V c 1 t) (iblk1 V c 2 t) (ix3 0 r d)
    = G1 (V c main_v4) (V c main_v5) (V c main_v6) (((cfg1.win 3).blk t).view.emb (ix3 (0 : Fin 1) r d))
  rw [emb3 t r d ⟨t.val / 4, hg⟩ ⟨512 * (t.val % 4) + r.val, htok⟩ rfl rfl]
  refine (pay1_apply _ _ _ r d).trans ?_
  show Cert.Attn.rOut _ _ _ d = Cert.Attn.rOut _ _ _ d
  congr 1
  · funext e
    show V c main_v4 (((cfg1.win 0).blk t).view.emb (ix3 (0 : Fin 1) r e)) = _
    rw [emb0 t r e ⟨t.val / 4, hg⟩ ⟨512 * (t.val % 4) + r.val, htok⟩ rfl rfl]
  · funext tk e
    show V c main_v5 (((cfg1.win 1).blk t).view.emb (ix3 (0 : Fin 1) tk e)) = _
    rw [emb1 t tk e ⟨t.val / 4, hg⟩ rfl]
  · funext tk e
    show V c main_v6 (((cfg1.win 2).blk t).view.emb (ix3 (0 : Fin 1) tk e)) = _
    rw [emb2 t tk e ⟨t.val / 4, hg⟩ rfl]

/-- An index of the array is in point `t`'s block iff each coordinate is in the block's range on its axis. -/
theorem mem_blk3 (t : Fin cfg1.N) (i : S32x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v7).slice (win1_3.rect t)).set ↔ _
  rw [View.set_slice_whole, Rect.mem_set_unit]
  exact Iff.rfl

/-- Every index of the output array is in the block of the point of its slab and tile. -/
theorem cover3 (i : S32x2048x64.Idx) :
    ∃ t : Fin cfg1.N, (cfg1.win 3).flush t = true ∧ i ∈ ((cfg1.win 3).blk t).view.set := by
  have h0 : (i 0).val < 32 := (i 0).isLt
  have h1 : (i 1).val < 2048 := (i 1).isLt
  have h2 : (i 2).val < 64 := (i 2).isLt
  have hN : grid1.N = 128 := N_1
  let t : Fin cfg1.N := ⟨4 * (i 0).val + (i 1).val / 512, by show _ < grid1.N; omega⟩
  obtain ⟨-, -, -, -, -, -, -, -, -, e0, e1, e2⟩ := idx_facts1 t
  have tv : t.val = 4 * (i 0).val + (i 1).val / 512 := rfl
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- THE ARRAY after the region: `G1` of the query, key and value arrays as the region finds them. -/
theorem final3 : (dat1 (F := Ideal) V c).arrAt 3 cfg1.N = G1 (V c main_v4) (V c main_v5) (V c main_v6) :=
  (dat1 (F := Ideal) V c).arrAt_eq_of_cover 3 _ (fun t _ => flushed3_eq V c t) cover3

end

end Cert.KernelIdeal.Reg1

end
-- ==== Proof.Region2Pay.lean ====
/-
  The output-projection body at an index.  From a block x0 : [1, 16, 512, 64] of head outputs and the whole matrix
  x1 : [1024, 1024] the body stores, at row r and column e, the sum over merged columns j = 64 h + d of
  x0 (0, h, r, d) * x1 (e, j): the sixteen heads' [512, 64] slices laid side by side, times the transpose of x1.
-/
import proofs.«170127_j31112743092498_2_alg».proof.Proof.Gen.KernelIdeal.Frame
import proofs.«170127_j31112743092498_2_alg».proof.Proof.Spec
import proofs.«170127_j31112743092498_2_alg».proof.Proof.LibNtMatmul
import Idealize.ShloMosaic.Lib.Pipeline.Value
import Idealize.ShloMosaic.Lib.ValueIdx
import Idealize.ShloMosaic.PureOps.Ideal.Laws

set_option maxRecDepth 16384

noncomputable section

namespace Cert.KernelIdeal.Reg2

open Cert.KernelIdeal Cert.KernelIdeal.Gen Idealize.ShloMosaic Idealize.ShloMosaic.ValueIdx

theorem hz2 : (![0, 0] : Fin 2 → Nat) = fun _ => 0 := funext fun a => by fin_cases a <;> rfl

section
variable (x0 : Vec Ideal S1x16x512x64 .bf16) (x1 : Vec Ideal S1024x1024 .bf16)

/-- Head h of the block as a [512, 64] matrix. -/
def headMat (h : Fin 16) : FVec Ideal S512x64 .bf16 := fun i => x0 (ix4 0 h (i 0) (i 1))

/-- The load of head hn's [1, 1, 512, 64] slice, read as a [512, 64] matrix, is that head's matrix: the slice's
    element (0, 0, r, d) is the block's (0, hn, r, d), and the two layouts have the same row-major position 64 r + d. -/
theorem cast_ld_eq (hn : Nat) (hlt : hn < 16)
    (inb : ∀ a, (![0, hn, 0, 0] : Fin 4 → Nat) a + S1x1x512x64.size a ≤ S1x16x512x64.size a) :
    shapeCast S512x64 (View.ld x0 (Rect.unit (s := S1x16x512x64) ![0, hn, 0, 0] S1x1x512x64.size inb))
      shapeCasts_S1x1x512x64_S512x64 = headMat x0 ⟨hn, hlt⟩ := by
  funext i
  obtain ⟨r, d, rfl⟩ : ∃ (r : Fin 512) (d : Fin 64), i = ix2 r d := ⟨i 0, i 1, eq_ix2 i⟩
  refine (shapeCast_apply _ shapeCasts_S1x1x512x64_S512x64 (ix2 r d) (ix4 (0 : Fin 1) (0 : Fin 1) r d) ?_).trans ?_
  · rw [Shape.rowMajor_val_four, Shape.rowMajor_val_two]
    show ((0 * 1 + 0) * 512 + r.val) * 64 + d.val = r.val * 64 + d.val
    omega
  · show x0 _ = x0 _
    refine congrArg x0 (funext fun a => Fin.ext ?_)
    match a with
    | ⟨0, _⟩ => show 0 + 1 * 0 = 0; rfl
    | ⟨1, _⟩ => show hn + 1 * 0 = hn; rfl
    | ⟨2, _⟩ => show 0 + 1 * r.val = r.val; omega
    | ⟨3, _⟩ => show 0 + 1 * d.val = d.val; omega

/-- Sixteen [512, 64] matrices side by side: column j of the [512, 1024] result is column j % 64 of matrix j / 64. -/
theorem cat_apply (f : Fin 16 → FVec Ideal S512x64 .bf16)
    (h : Shape.Concatenates (([⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩, ⟨S512x64, f 12⟩, ⟨S512x64, f 13⟩, ⟨S512x64, f 14⟩, ⟨S512x64, f 15⟩] : List ((s : Shape) × (s.Idx → Ideal .bf16))).map (·.1)) S512x1024 1)
    (r : Fin 512) (j : Fin 1024) :
    concatenate S512x1024 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩, ⟨S512x64, f 8⟩, ⟨S512x64, f 9⟩, ⟨S512x64, f 10⟩, ⟨S512x64, f 11⟩, ⟨S512x64, f 12⟩, ⟨S512x64, f 13⟩, ⟨S512x64, f 14⟩, ⟨S512x64, f 15⟩] h (ix2 r j) = f (Cert.Attn.headOf j) (ix2 r (Cert.Attn.laneOf j)) :=
  concatenate_ofFn_apply (t := S512x1024) (s₁ := S512x64) 1 f h rfl 64 rfl (ix2 r j) (Cert.Attn.headOf j) rfl
    (ix2 r (Cert.Attn.laneOf j)) rfl (fun b hb => by
      match b with
      | ⟨0, _⟩ => rfl
      | ⟨1, _⟩ => exact absurd rfl hb)

/-- THE PAYLOAD AT AN INDEX: row r, column e of what the body stores. -/
theorem pay_apply (r : Fin 512) (e : Fin 1024) :
    out2_2 (F := Ideal) x0 x1 (ix2 r e)
      = ∑ j : Fin 1024, x0 (ix4 0 (Cert.Attn.headOf j) r (Cert.Attn.laneOf j)) * x1 (ix2 e j) := by
  unfold out2_2
  rw [View.canon_unit_zero hz2]
  unfold k2_pay2
  refine (NtMatmul.matmul_zero_apply_fmt 512 1024 1024 none _ _ r e).trans ?_
  refine Finset.sum_congr rfl fun j _ => ?_
  refine congrArg₂ (· * ·) ?_ ?_
  · unfold k2_pay1 k2_pay3 k2_pay4 k2_pay5 k2_pay6 k2_pay7 k2_pay8 k2_pay9 k2_pay10 k2_pay11
    simp only [cast_ld_eq x0 0 (by omega), cast_ld_eq x0 1 (by omega), cast_ld_eq x0 2 (by omega), cast_ld_eq x0 3 (by omega), cast_ld_eq x0 4 (by omega), cast_ld_eq x0 5 (by omega), cast_ld_eq x0 6 (by omega), cast_ld_eq x0 7 (by omega), cast_ld_eq x0 8 (by omega), cast_ld_eq x0 9 (by omega), cast_ld_eq x0 10 (by omega), cast_ld_eq x0 11 (by omega), cast_ld_eq x0 12 (by omega), cast_ld_eq x0 13 (by omega), cast_ld_eq x0 14 (by omega), cast_ld_eq x0 15 (by omega)]
    exact cat_apply (headMat x0) _ r j
  · rw [shapeCast_self, View.ld_unit_zero hz2]

end

end Cert.KernelIdeal.Reg2

end
-- ==== Proof.Region2Final.lean ====
/-
  The array the output-projection region leaves, in closed form.  Grid point t (of 8) reads rows 512 (t % 4) … of batch
  t / 4 from the head-layout array [2, 16, 2048, 64] (all 16 heads), the whole weight matrix, and writes rows
  512 t … 512 t + 511 of the [4096, 1024] result; row R of the result is batch R / 2048, token R % 2048.
-/
import proofs.«170127_j31112743092498_2_alg».proof.Proof.Region2Pay

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The printed index maps, decided over the eight grid points. -/
theorem idx_facts : ∀ t : Fin cfg2.N, win2_0.index t (0 : Fin 4) = t.val / 4 ∧ win2_0.index t (1 : Fin 4) = 0
    ∧ win2_0.index t (2 : Fin 4) = t.val % 4 ∧ win2_0.index t (3 : Fin 4) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The result array as one function of the head-layout array a0 and the weight matrix a1: row R, column e is the sum
    over merged columns j of a0 (R / 2048, j / 64, R % 2048, j % 64) * a1 (e, j). -/
def G (a0 : S2x16x2048x64.Idx → EReal) (a1 : S1024x1024.Idx → EReal) : S4096x1024.Idx → EReal := fun i =>
  ∑ j : Fin 1024, a0 (ix4 (⟨(i 0).val / 2048, by have h : (i 0).val < 4096 := (i 0).isLt; omega⟩ : Fin 2) (Cert.Attn.headOf j)
      (⟨(i 0).val % 2048, Nat.mod_lt _ (by decide)⟩ : Fin 2048) (Cert.Attn.laneOf j))
    * a1 (ix2 (⟨(i 1).val, (i 1).isLt⟩ : Fin 1024) j)

/-- The payload at any index of the block. -/
theorem pay_at (x0 : Vec Ideal S1x16x512x64 .bf16) (x1 : Vec Ideal S1024x1024 .bf16) (y : S512x1024.Idx) :
    out2_2 (F := Ideal) x0 x1 y
      = ∑ j : Fin 1024, x0 (ix4 0 (Cert.Attn.headOf j) (⟨(y 0).val, (y 0).isLt⟩ : Fin 512) (Cert.Attn.laneOf j))
          * x1 (ix2 (⟨(y 1).val, (y 1).isLt⟩ : Fin 1024) j) := by
  obtain ⟨r, e, rfl⟩ : ∃ (r : Fin 512) (e : Fin 1024), y = ix2 r e := ⟨y 0, y 1, eq_ix2 y⟩
  exact pay_apply x0 x1 r e

variable (V : (c : Dev nD) → (b : Ref sig .tc) → Buf (Elt Ideal) ((c : Thread nD τ).loc b))

/-- WHAT POINT t WRITES BACK is block t of G of the arrays as the region finds them. -/
theorem flushed_eq (c : Dev nD) (t : Fin cfg2.N) :
    (dat2 (F := Ideal) V c).flushed 2 t
      = ((cfg2.win 2).blk t).view.read (Elt Ideal) (G (V c main_v8) (V c main_v1)) := by
  show (cfg2.win 2).cut (grid2.coords t) ((dat2 (F := Ideal) V c).after 2 t) = _
  rw [after2_2]
  obtain ⟨e0, e1, e2, e3, e4, e5, e6, e7⟩ := idx_facts t
  have ht : t.val < 8 := t.isLt
  funext y
  show out2_2 (F := Ideal) (iblk2 V c 0 t) (iblk2 V c 1 t) y
    = G (V c main_v8) (V c main_v1) (((cfg2.win 2).blk t).view.emb y)
  refine (pay_at (iblk2 V c 0 t) (iblk2 V c 1 t) y).trans ?_
  unfold G
  have hy0 : (y 0).val < 512 := (y 0).isLt
  have hy1 : (y 1).val < 1024 := (y 1).isLt
  refine Finset.sum_congr rfl fun j _ => ?_
  have hh : (Cert.Attn.headOf j).val < 16 := (Cert.Attn.headOf j).isLt
  have hl : (Cert.Attn.laneOf j).val < 64 := (Cert.Attn.laneOf j).isLt
  have hj : j.val < 1024 := j.isLt
  refine congrArg₂ (· * ·) ?_ ?_
  · show V c main_v8 (((cfg2.win 0).blk t).view.emb _) = V c main_v8 _
    refine congrArg (V c main_v8) (funext fun a => Fin.ext ?_)
    match a with
    | ⟨0, _⟩ =>
      show win2_0.index t (0 : Fin 4) * 1 + 1 * 0 = (win2_2.index t (0 : Fin 2) * 512 + 1 * (y 0).val) / 2048
      omega
    | ⟨1, _⟩ =>
      show win2_0.index t (1 : Fin 4) * 16 + 1 * (Cert.Attn.headOf j).val = (Cert.Attn.headOf j).val
      omega
    | ⟨2, _⟩ =>
      show win2_0.index t (2 : Fin 4) * 512 + 1 * (y 0).val = (win2_2.index t (0 : Fin 2) * 512 + 1 * (y 0).val) % 2048
      omega
    | ⟨3, _⟩ =>
      show win2_0.index t (3 : Fin 4) * 64 + 1 * (Cert.Attn.laneOf j).val = (Cert.Attn.laneOf j).val
      omega
  · show V c main_v1 (((cfg2.win 1).blk t).view.emb _) = V c main_v1 _
    refine congrArg (V c main_v1) (funext fun a => Fin.ext ?_)
    match a with
    | ⟨0, _⟩ =>
      show win2_1.index t (0 : Fin 2) * 1024 + 1 * (y 1).val = win2_2.index t (1 : Fin 2) * 1024 + 1 * (y 1).val
      omega
    | ⟨1, _⟩ =>
      show win2_1.index t (1 : Fin 2) * 1024 + 1 * j.val = j.val
      omega

/-- An index of the array is in point t's block iff each coordinate is in the block's range on its axis. -/
theorem mem_blk (t : Fin cfg2.N) (i : S4096x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v9).slice (win2_2.rect t)).set ↔ _
  rw [View.set_slice_whole, Rect.mem_set_unit]
  exact Iff.rfl

/-- Every index of the array is in some point's block: row R is in the block of point R / 512. -/
theorem cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  have hN : (i 0).val / 512 < cfg2.N := by show (i 0).val / 512 < 8; omega
  obtain ⟨-, -, -, -, -, -, e6, e7⟩ := idx_facts ⟨(i 0).val / 512, hN⟩
  have e6' : win2_2.index ⟨(i 0).val / 512, hN⟩ (0 : Fin 2) = (i 0).val / 512 := e6
  refine ⟨⟨(i 0).val / 512, hN⟩, flush2_2 _, ?_⟩
  rw [mem_blk]
  intro a
  match a with
  | ⟨0, _⟩ =>
    show win2_2.index ⟨(i 0).val / 512, hN⟩ (0 : Fin 2) * 512 ≤ (i 0).val
      ∧ (i 0).val < win2_2.index ⟨(i 0).val / 512, hN⟩ (0 : Fin 2) * 512 + 512
    omega
  | ⟨1, _⟩ =>
    show win2_2.index ⟨(i 0).val / 512, hN⟩ (1 : Fin 2) * 1024 ≤ (i 1).val
      ∧ (i 1).val < win2_2.index ⟨(i 0).val / 512, hN⟩ (1 : Fin 2) * 1024 + 1024
    omega

/-- THE ARRAY after the region: G of the arrays as the region finds them. -/
theorem final_out (c : Dev nD) :
    (dat2 (F := Ideal) V c).arrAt 2 cfg2.N = G (V c main_v8) (V c main_v1) :=
  (dat2 (F := Ideal) V c).arrAt_eq_of_cover 2 (G (V c main_v8) (V c main_v1)) (fun t _ => flushed_eq V c t) cover

end Cert.KernelIdeal.Reg2

end
-- ==== Proof.Region0Pay.lean ====
import proofs.«170127_j31112743092498_2_alg».proof.Proof.Gen.KernelIdeal.Frame
import proofs.«170127_j31112743092498_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.ValueIdx

/-! ## The product at an index

The row block x0 : [256,1024] meets the weight x1 : [3072,1024] along their second axes: entry (r, e) of the
product is ∑_d x0(r, d) · x1(e, d).  Format changes are the identity on the extended reals, and the accumulator
is zero. -/

theorem lhs_axis0 (j : S256x3072.Idx) (q : dot_S256x1024_S3072x1024_S256x3072_1_1_0_0_n_n.contr.Idx) :
    (dot_S256x1024_S3072x1024_S256x3072_1_1_0_0_n_n.lhsIdx j q 0).val = (j 0).val := by
  unfold DotDims.lhsIdx
  rw [dif_neg (show ¬(0 : Fin S256x1024.rank) ∈ dot_S256x1024_S3072x1024_S256x3072_1_1_0_0_n_n.lhsBatch by decide),
    dif_pos (show (0 : Fin S256x1024.rank) ∈ dot_S256x1024_S3072x1024_S256x3072_1_1_0_0_n_n.lhsNonContracting by decide)]
  rfl

theorem lhs_axis1 (j : S256x3072.Idx) (q : dot_S256x1024_S3072x1024_S256x3072_1_1_0_0_n_n.contr.Idx) :
    (dot_S256x1024_S3072x1024_S256x3072_1_1_0_0_n_n.lhsIdx j q 1).val = (q ⟨0, by decide⟩).val :=
  dot_S256x1024_S3072x1024_S256x3072_1_1_0_0_n_n.lhsIdx_val_of_single rfl j q

theorem rhs_axis0 (j : S256x3072.Idx) (q : dot_S256x1024_S3072x1024_S256x3072_1_1_0_0_n_n.contr.Idx) :
    (dot_S256x1024_S3072x1024_S256x3072_1_1_0_0_n_n.rhsIdx j q 0).val = (j 1).val := by
  unfold DotDims.rhsIdx
  rw [dif_neg (show ¬(0 : Fin S3072x1024.rank) ∈ dot_S256x1024_S3072x1024_S256x3072_1_1_0_0_n_n.rhsBatch by decide),
    dif_pos (show (0 : Fin S3072x1024.rank) ∈ dot_S256x1024_S3072x1024_S256x3072_1_1_0_0_n_n.rhsNonContracting by decide)]
  rfl

theorem rhs_axis1 (j : S256x3072.Idx) (q : dot_S256x1024_S3072x1024_S256x3072_1_1_0_0_n_n.contr.Idx) :
    (dot_S256x1024_S3072x1024_S256x3072_1_1_0_0_n_n.rhsIdx j q 1).val = (q ⟨0, by decide⟩).val :=
  dot_S256x1024_S3072x1024_S256x3072_1_1_0_0_n_n.rhsIdx_val_of_single rfl j q

/-- The product of the row block with the transposed weight, read at (r, e). -/
theorem mm_apply (x0 : Vec Ideal S256x1024 .f32) (x1 : Vec Ideal S3072x1024 .bf16) (r : Fin 256) (e : Fin 3072) :
    k0_pay5 (F := Ideal) x0 x1 (ix2 r e) = ∑ d : Fin 1024, x0 (ix2 r d) * x1 (ix2 e d) := by
  unfold k0_pay5
  rw [shapeCast_self, shapeCast_self]
  refine (truncf_apply (φ := .f32) (ψ := .bf16) _ bitsLt_bf16_f32 (ix2 r e)).trans ?_
  refine (Ideal.matmul_constant_zero_apply (φ₁ := .bf16) (φ₂ := .bf16) dot_S256x1024_S3072x1024_S256x3072_1_1_0_0_n_n none _ _ (ix2 r e)).trans ?_
  rw [← Equiv.sum_comp (contrEquiv1 dot_S256x1024_S3072x1024_S256x3072_1_1_0_0_n_n 1024 rfl rfl).symm]
  refine Finset.sum_congr rfl fun k _ => ?_
  have hk := contrEquiv1_symm_val dot_S256x1024_S3072x1024_S256x3072_1_1_0_0_n_n 1024 rfl rfl k
  have el : dot_S256x1024_S3072x1024_S256x3072_1_1_0_0_n_n.lhsIdx (ix2 r e) ((contrEquiv1 dot_S256x1024_S3072x1024_S256x3072_1_1_0_0_n_n 1024 rfl rfl).symm k) = ix2 r k :=
    funext fun a => Fin.ext (by
      match a with
      | ⟨0, _⟩ => exact lhs_axis0 _ _
      | ⟨1, _⟩ => exact (lhs_axis1 _ _).trans hk)
  have er : dot_S256x1024_S3072x1024_S256x3072_1_1_0_0_n_n.rhsIdx (ix2 r e) ((contrEquiv1 dot_S256x1024_S3072x1024_S256x3072_1_1_0_0_n_n 1024 rfl rfl).symm k) = ix2 e k :=
    funext fun a => Fin.ext (by
      match a with
      | ⟨0, _⟩ => exact rhs_axis0 _ _
      | ⟨1, _⟩ => exact (rhs_axis1 _ _).trans hk)
  rw [el, er]
  rfl

/-! ## A head's columns, cut out and re-laid

A [256,64] column block at offset o2 of a [256,1024] column block at offset o1 of a [256,3072] array, laid out as
[1,1,256,64] and read at (u, v, r, d), is the array at (r, o1 + o2 + d): the two leading coordinates are 0 and the
row-major position is unchanged. -/

theorem cast_slice_slice_apply {α : Type} (o1 o2 : Nat) (Y : S256x3072.Idx → α)
    (h1 : S256x3072.Slices ![0, o1] S256x1024) (h2 : S256x1024.Slices ![0, o2] S256x64)
    (hc : S256x64.ShapeCasts S1x1x256x64) (u v : Fin 1) (r : Fin 256) (d : Fin 64) (k : Fin 3072)
    (hk : k.val = o1 + o2 + d.val) :
    shapeCast S1x1x256x64 (extractStridedSlice S256x64 ![0, o2] (extractStridedSlice S256x1024 ![0, o1] Y h1) h2) hc (ix4 u v r d)
      = Y (ix2 r k) := by
  have hu : u.val = 0 := by omega
  have hv : v.val = 0 := by omega
  have hd : o2 + d.val < 1024 := by
    have h' : o2 + 64 ≤ 1024 := h2.2 (1 : Fin 2)
    omega
  refine (shapeCast_apply _ hc (ix4 u v r d) (ix2 r d) ?_).trans ?_
  · rw [Shape.rowMajor_val_four, Shape.rowMajor_val_two]
    show r.val * 64 + d.val = ((u.val * 1 + v.val) * 256 + r.val) * 64 + d.val
    rw [hu, hv]; omega
  refine (slice2_axis1_apply o2 _ h2 r d ⟨o2 + d.val, hd⟩ rfl).trans ?_
  exact slice2_axis1_apply o1 Y h1 r ⟨o2 + d.val, hd⟩ k (by show k.val = o1 + (o2 + d.val); omega)

/-! ## One stored piece

Part s (0 = queries, 1 = keys, 2 = values), head h, of a row block: entry (u, h, r, d) of the [1,16,256,64] block is
∑_e x0(r, e) · x1(1024 s + 64 h + d, e). -/

/-- The [1,16,256,64] block the body leaves for part `s`, as one function of the block index. -/
def blockOf (s : Fin 3) (x0 : Vec Ideal S256x1024 .f32) (x1 : Vec Ideal S3072x1024 .bf16) : Vec Ideal S1x16x256x64 .bf16 :=
  fun y => ∑ e : Fin 1024, x0 (ix2 (y 2 : Fin 256) e) * x1 (ix2 (Cert.Attn.col s (y 1 : Fin 16) (y 3 : Fin 64)) e)

/-- A stored piece — the cast of the 64 columns at o2 of the 1024 columns at o1 of the product — read at (u, v, r, d)
    is `blockOf s` at any block index `y` whose row is r and whose column 1024 s + 64 (y 1) + (y 3) is o1 + o2 + d. -/
theorem piece_apply (s : Fin 3) (o1 o2 : Nat) (x0 : Vec Ideal S256x1024 .f32) (x1 : Vec Ideal S3072x1024 .bf16)
    (h1 : S256x3072.Slices ![0, o1] S256x1024) (h2 : S256x1024.Slices ![0, o2] S256x64)
    (hc : S256x64.ShapeCasts S1x1x256x64) (u v : Fin 1) (r : Fin 256) (d : Fin 64) (y : S1x16x256x64.Idx)
    (hrow : (y 2).val = r.val) (hcol : 1024 * s.val + 64 * (y 1).val + (y 3).val = o1 + o2 + d.val) :
    shapeCast S1x1x256x64 (extractStridedSlice S256x64 ![0, o2]
        (extractStridedSlice S256x1024 ![0, o1] (k0_pay5 (F := Ideal) x0 x1) h1) h2) hc (ix4 u v r d)
      = blockOf s x0 x1 y := by
  refine (cast_slice_slice_apply o1 o2 _ h1 h2 hc u v r d (Cert.Attn.col s (y 1 : Fin 16) (y 3 : Fin 64)) ?_).trans ?_
  · show 1024 * s.val + 64 * (y 1).val + (y 3).val = o1 + o2 + d.val
    exact hcol
  refine (mm_apply x0 x1 r _).trans ?_
  have hr : r = (y 2 : Fin 256) := Fin.ext hrow.symm
  unfold blockOf
  rw [hr]

end Cert.KernelIdeal.Reg0
end
-- ==== Proof.Region0Block.lean ====
import proofs.«170127_j31112743092498_2_alg».proof.Proof.Region0Pay

set_option maxRecDepth 16384

noncomputable section

namespace Cert.KernelIdeal.Reg0

open Cert.KernelIdeal Cert.KernelIdeal.Gen Idealize.ShloMosaic Idealize.ShloMosaic.ValueIdx

/-! ## The loads read the whole staging buffers -/

theorem zero_offsets : (![0, 0] : Fin 2 → Nat) = fun _ => 0 := funext fun a => by fin_cases a <;> rfl

theorem ld_x0 (x0 : Vec Ideal S256x1024 .f32) : View.ld x0 r0_0 = x0 :=
  View.ld_unit_zero (S := S256x1024) zero_offsets _ x0

theorem ld_x1 (x1 : Vec Ideal S3072x1024 .bf16) : View.ld x1 r0_1 = x1 :=
  View.ld_unit_zero (S := S3072x1024) zero_offsets _ x1

/-- The stored piece at a local index `x` of the [1,1,256,64] payload: `piece_apply` with the index split into its
    coordinates. -/
theorem piece_at (s : Fin 3) (o1 o2 : Nat) (x0 : Vec Ideal S256x1024 .f32) (x1 : Vec Ideal S3072x1024 .bf16)
    (h1 : S256x3072.Slices ![0, o1] S256x1024) (h2 : S256x1024.Slices ![0, o2] S256x64)
    (hc : S256x64.ShapeCasts S1x1x256x64) (x : S1x1x256x64.Idx) (y : S1x16x256x64.Idx)
    (hrow : (y 2).val = (x 2).val) (hcol : 1024 * s.val + 64 * (y 1).val + (y 3).val = o1 + o2 + (x 3).val) :
    shapeCast S1x1x256x64 (extractStridedSlice S256x64 ![0, o2]
        (extractStridedSlice S256x1024 ![0, o1] (k0_pay5 (F := Ideal) x0 x1) h1) h2) hc x
      = blockOf s x0 x1 y := by
  obtain ⟨u, v, r, d, rfl⟩ : ∃ (u v : Fin 1) (r : Fin 256) (d : Fin 64), x = ix4 u v r d :=
    ⟨x 0, x 1, x 2, x 3, eq_ix4 x⟩
  exact piece_apply s o1 o2 x0 x1 h1 h2 hc u v r d y hrow hcol

end Cert.KernelIdeal.Reg0
end
-- ==== Proof.Region0BlockQ.lean ====
import proofs.«170127_j31112743092498_2_alg».proof.Proof.Region0Block

set_option maxRecDepth 16384

noncomputable section

namespace Cert.KernelIdeal.Reg0

open Cert.KernelIdeal Cert.KernelIdeal.Gen Idealize.ShloMosaic Idealize.ShloMosaic.ValueIdx

/-! ## The 16 stores of output window 2

Each store writes one head: the cast of 64 columns of part 0 of the product, at head h of the block.  Piece by
piece the payload is `blockOf 0` at the piece's place, and the pieces tile the block. -/

/-- Output window 2's buffer after the body is part 0 of the projected row block, head by head. -/
theorem out0_2_eq (x0 : Vec Ideal S256x1024 .f32) (x1 : Vec Ideal S3072x1024 .bf16) :
    out0_2 (F := Ideal) x0 x1 = blockOf 0 x0 x1 := by
  funext y
  unfold out0_2
  rw [ld_x0, ld_x1]
  refine View.canon_apply_of_pieces (blockOf 0 x0 x1) _ ?_ y (cover0_2 _ _ _ _ _ _ _ _ _ _ _ _ _ _ _ _ y)
  intro p hp
  simp only [List.mem_cons, List.mem_singleton, List.not_mem_nil, or_false] at hp
  rcases hp with rfl | rfl | rfl | rfl | rfl | rfl | rfl | rfl | rfl | rfl | rfl | rfl | rfl | rfl | rfl | rfl
  · intro x
    have hx1 : (x 1).val < 1 := (x 1).isLt
    exact piece_at 0 0 960 x0 x1 slices_S256x3072_o0_0_S256x1024 slices_S256x1024_o0_960_S256x64
      shapeCasts_S256x64_S1x1x256x64 x _
      (by show 0 + 1 * (x 2).val = (x 2).val; omega)
      (by show 1024 * 0 + 64 * (15 + 1 * (x 1).val) + (0 + 1 * (x 3).val) = 0 + 960 + (x 3).val; omega)
  · intro x
    have hx1 : (x 1).val < 1 := (x 1).isLt
    exact piece_at 0 0 896 x0 x1 slices_S256x3072_o0_0_S256x1024 slices_S256x1024_o0_896_S256x64
      shapeCasts_S256x64_S1x1x256x64 x _
      (by show 0 + 1 * (x 2).val = (x 2).val; omega)
      (by show 1024 * 0 + 64 * (14 + 1 * (x 1).val) + (0 + 1 * (x 3).val) = 0 + 896 + (x 3).val; omega)
  · intro x
    have hx1 : (x 1).val < 1 := (x 1).isLt
    exact piece_at 0 0 832 x0 x1 slices_S256x3072_o0_0_S256x1024 slices_S256x1024_o0_832_S256x64
      shapeCasts_S256x64_S1x1x256x64 x _
      (by show 0 + 1 * (x 2).val = (x 2).val; omega)
      (by show 1024 * 0 + 64 * (13 + 1 * (x 1).val) + (0 + 1 * (x 3).val) = 0 + 832 + (x 3).val; omega)
  · intro x
    have hx1 : (x 1).val < 1 := (x 1).isLt
    exact piece_at 0 0 768 x0 x1 slices_S256x3072_o0_0_S256x1024 slices_S256x1024_o0_768_S256x64
      shapeCasts_S256x64_S1x1x256x64 x _
      (by show 0 + 1 * (x 2).val = (x 2).val; omega)
      (by show 1024 * 0 + 64 * (12 + 1 * (x 1).val) + (0 + 1 * (x 3).val) = 0 + 768 + (x 3).val; omega)
  · intro x
    have hx1 : (x 1).val < 1 := (x 1).isLt
    exact piece_at 0 0 704 x0 x1 slices_S256x3072_o0_0_S256x1024 slices_S256x1024_o0_704_S256x64
      shapeCasts_S256x64_S1x1x256x64 x _
      (by show 0 + 1 * (x 2).val = (x 2).val; omega)
      (by show 1024 * 0 + 64 * (11 + 1 * (x 1).val) + (0 + 1 * (x 3).val) = 0 + 704 + (x 3).val; omega)
  · intro x
    have hx1 : (x 1).val < 1 := (x 1).isLt
    exact piece_at 0 0 640 x0 x1 slices_S256x3072_o0_0_S256x1024 slices_S256x1024_o0_640_S256x64
      shapeCasts_S256x64_S1x1x256x64 x _
      (by show 0 + 1 * (x 2).val = (x 2).val; omega)
      (by show 1024 * 0 + 64 * (10 + 1 * (x 1).val) + (0 + 1 * (x 3).val) = 0 + 640 + (x 3).val; omega)
  · intro x
    have hx1 : (x 1).val < 1 := (x 1).isLt
    exact piece_at 0 0 576 x0 x1 slices_S256x3072_o0_0_S256x1024 slices_S256x1024_o0_576_S256x64
      shapeCasts_S256x64_S1x1x256x64 x _
      (by show 0 + 1 * (x 2).val = (x 2).val; omega)
      (by show 1024 * 0 + 64 * (9 + 1 * (x 1).val) + (0 + 1 * (x 3).val) = 0 + 576 + (x 3).val; omega)
  · intro x
    have hx1 : (x 1).val < 1 := (x 1).isLt
    exact piece_at 0 0 512 x0 x1 slices_S256x3072_o0_0_S256x1024 slices_S256x1024_o0_512_S256x64
      shapeCasts_S256x64_S1x1x256x64 x _
      (by show 0 + 1 * (x 2).val = (x 2).val; omega)
      (by show 1024 * 0 + 64 * (8 + 1 * (x 1).val) + (0 + 1 * (x 3).val) = 0 + 512 + (x 3).val; omega)
  · intro x
    have hx1 : (x 1).val < 1 := (x 1).isLt
    exact piece_at 0 0 448 x0 x1 slices_S256x3072_o0_0_S256x1024 slices_S256x1024_o0_448_S256x64
      shapeCasts_S256x64_S1x1x256x64 x _
      (by show 0 + 1 * (x 2).val = (x 2).val; omega)
      (by show 1024 * 0 + 64 * (7 + 1 * (x 1).val) + (0 + 1 * (x 3).val) = 0 + 448 + (x 3).val; omega)
  · intro x
    have hx1 : (x 1).val < 1 := (x 1).isLt
    exact piece_at 0 0 384 x0 x1 slices_S256x3072_o0_0_S256x1024 slices_S256x1024_o0_384_S256x64
      shapeCasts_S256x64_S1x1x256x64 x _
      (by show 0 + 1 * (x 2).val = (x 2).val; omega)
      (by show 1024 * 0 + 64 * (6 + 1 * (x 1).val) + (0 + 1 * (x 3).val) = 0 + 384 + (x 3).val; omega)
  · intro x
    have hx1 : (x 1).val < 1 := (x 1).isLt
    exact piece_at 0 0 320 x0 x1 slices_S256x3072_o0_0_S256x1024 slices_S256x1024_o0_320_S256x64
      shapeCasts_S256x64_S1x1x256x64 x _
      (by show 0 + 1 * (x 2).val = (x 2).val; omega)
      (by show 1024 * 0 + 64 * (5 + 1 * (x 1).val) + (0 + 1 * (x 3).val) = 0 + 320 + (x 3).val; omega)
  · intro x
    have hx1 : (x 1).val < 1 := (x 1).isLt
    exact piece_at 0 0 256 x0 x1 slices_S256x3072_o0_0_S256x1024 slices_S256x1024_o0_256_S256x64
      shapeCasts_S256x64_S1x1x256x64 x _
      (by show 0 + 1 * (x 2).val = (x 2).val; omega)
      (by show 1024 * 0 + 64 * (4 + 1 * (x 1).val) + (0 + 1 * (x 3).val) = 0 + 256 + (x 3).val; omega)
  · intro x
    have hx1 : (x 1).val < 1 := (x 1).isLt
    exact piece_at 0 0 192 x0 x1 slices_S256x3072_o0_0_S256x1024 slices_S256x1024_o0_192_S256x64
      shapeCasts_S256x64_S1x1x256x64 x _
      (by show 0 + 1 * (x 2).val = (x 2).val; omega)
      (by show 1024 * 0 + 64 * (3 + 1 * (x 1).val) + (0 + 1 * (x 3).val) = 0 + 192 + (x 3).val; omega)
  · intro x
    have hx1 : (x 1).val < 1 := (x 1).isLt
    exact piece_at 0 0 128 x0 x1 slices_S256x3072_o0_0_S256x1024 slices_S256x1024_o0_128_S256x64
      shapeCasts_S256x64_S1x1x256x64 x _
      (by show 0 + 1 * (x 2).val = (x 2).val; omega)
      (by show 1024 * 0 + 64 * (2 + 1 * (x 1).val) + (0 + 1 * (x 3).val) = 0 + 128 + (x 3).val; omega)
  · intro x
    have hx1 : (x 1).val < 1 := (x 1).isLt
    exact piece_at 0 0 64 x0 x1 slices_S256x3072_o0_0_S256x1024 slices_S256x1024_o0_64_S256x64
      shapeCasts_S256x64_S1x1x256x64 x _
      (by show 0 + 1 * (x 2).val = (x 2).val; omega)
      (by show 1024 * 0 + 64 * (1 + 1 * (x 1).val) + (0 + 1 * (x 3).val) = 0 + 64 + (x 3).val; omega)
  · intro x
    have hx1 : (x 1).val < 1 := (x 1).isLt
    exact piece_at 0 0 0 x0 x1 slices_S256x3072_o0_0_S256x1024 slices_S256x1024_o0_0_S256x64
      shapeCasts_S256x64_S1x1x256x64 x _
      (by show 0 + 1 * (x 2).val = (x 2).val; omega)
      (by show 1024 * 0 + 64 * (0 + 1 * (x 1).val) + (0 + 1 * (x 3).val) = 0 + 0 + (x 3).val; omega)

end Cert.KernelIdeal.Reg0
end
-- ==== Proof.Region0BlockK.lean ====
import proofs.«170127_j31112743092498_2_alg».proof.Proof.Region0Block

set_option maxRecDepth 16384

noncomputable section

namespace Cert.KernelIdeal.Reg0

open Cert.KernelIdeal Cert.KernelIdeal.Gen Idealize.ShloMosaic Idealize.ShloMosaic.ValueIdx

/-! ## The 16 stores of output window 3

Each store writes one head: the cast of 64 columns of part 1 of the product, at head h of the block.  Piece by
piece the payload is `blockOf 1` at the piece's place, and the pieces tile the block. -/

/-- Output window 3's buffer after the body is part 1 of the projected row block, head by head. -/
theorem out0_3_eq (x0 : Vec Ideal S256x1024 .f32) (x1 : Vec Ideal S3072x1024 .bf16) :
    out0_3 (F := Ideal) x0 x1 = blockOf 1 x0 x1 := by
  funext y
  unfold out0_3
  rw [ld_x0, ld_x1]
  refine View.canon_apply_of_pieces (blockOf 1 x0 x1) _ ?_ y (cover0_3 _ _ _ _ _ _ _ _ _ _ _ _ _ _ _ _ y)
  intro p hp
  simp only [List.mem_cons, List.mem_singleton, List.not_mem_nil, or_false] at hp
  rcases hp with rfl | rfl | rfl | rfl | rfl | rfl | rfl | rfl | rfl | rfl | rfl | rfl | rfl | rfl | rfl | rfl
  · intro x
    have hx1 : (x 1).val < 1 := (x 1).isLt
    exact piece_at 1 1024 960 x0 x1 slices_S256x3072_o0_1024_S256x1024 slices_S256x1024_o0_960_S256x64
      shapeCasts_S256x64_S1x1x256x64 x _
      (by show 0 + 1 * (x 2).val = (x 2).val; omega)
      (by show 1024 * 1 + 64 * (15 + 1 * (x 1).val) + (0 + 1 * (x 3).val) = 1024 + 960 + (x 3).val; omega)
  · intro x
    have hx1 : (x 1).val < 1 := (x 1).isLt
    exact piece_at 1 1024 896 x0 x1 slices_S256x3072_o0_1024_S256x1024 slices_S256x1024_o0_896_S256x64
      shapeCasts_S256x64_S1x1x256x64 x _
      (by show 0 + 1 * (x 2).val = (x 2).val; omega)
      (by show 1024 * 1 + 64 * (14 + 1 * (x 1).val) + (0 + 1 * (x 3).val) = 1024 + 896 + (x 3).val; omega)
  · intro x
    have hx1 : (x 1).val < 1 := (x 1).isLt
    exact piece_at 1 1024 832 x0 x1 slices_S256x3072_o0_1024_S256x1024 slices_S256x1024_o0_832_S256x64
      shapeCasts_S256x64_S1x1x256x64 x _
      (by show 0 + 1 * (x 2).val = (x 2).val; omega)
      (by show 1024 * 1 + 64 * (13 + 1 * (x 1).val) + (0 + 1 * (x 3).val) = 1024 + 832 + (x 3).val; omega)
  · intro x
    have hx1 : (x 1).val < 1 := (x 1).isLt
    exact piece_at 1 1024 768 x0 x1 slices_S256x3072_o0_1024_S256x1024 slices_S256x1024_o0_768_S256x64
      shapeCasts_S256x64_S1x1x256x64 x _
      (by show 0 + 1 * (x 2).val = (x 2).val; omega)
      (by show 1024 * 1 + 64 * (12 + 1 * (x 1).val) + (0 + 1 * (x 3).val) = 1024 + 768 + (x 3).val; omega)
  · intro x
    have hx1 : (x 1).val < 1 := (x 1).isLt
    exact piece_at 1 1024 704 x0 x1 slices_S256x3072_o0_1024_S256x1024 slices_S256x1024_o0_704_S256x64
      shapeCasts_S256x64_S1x1x256x64 x _
      (by show 0 + 1 * (x 2).val = (x 2).val; omega)
      (by show 1024 * 1 + 64 * (11 + 1 * (x 1).val) + (0 + 1 * (x 3).val) = 1024 + 704 + (x 3).val; omega)
  · intro x
    have hx1 : (x 1).val < 1 := (x 1).isLt
    exact piece_at 1 1024 640 x0 x1 slices_S256x3072_o0_1024_S256x1024 slices_S256x1024_o0_640_S256x64
      shapeCasts_S256x64_S1x1x256x64 x _
      (by show 0 + 1 * (x 2).val = (x 2).val; omega)
      (by show 1024 * 1 + 64 * (10 + 1 * (x 1).val) + (0 + 1 * (x 3).val) = 1024 + 640 + (x 3).val; omega)
  · intro x
    have hx1 : (x 1).val < 1 := (x 1).isLt
    exact piece_at 1 1024 576 x0 x1 slices_S256x3072_o0_1024_S256x1024 slices_S256x1024_o0_576_S256x64
      shapeCasts_S256x64_S1x1x256x64 x _
      (by show 0 + 1 * (x 2).val = (x 2).val; omega)
      (by show 1024 * 1 + 64 * (9 + 1 * (x 1).val) + (0 + 1 * (x 3).val) = 1024 + 576 + (x 3).val; omega)
  · intro x
    have hx1 : (x 1).val < 1 := (x 1).isLt
    exact piece_at 1 1024 512 x0 x1 slices_S256x3072_o0_1024_S256x1024 slices_S256x1024_o0_512_S256x64
      shapeCasts_S256x64_S1x1x256x64 x _
      (by show 0 + 1 * (x 2).val = (x 2).val; omega)
      (by show 1024 * 1 + 64 * (8 + 1 * (x 1).val) + (0 + 1 * (x 3).val) = 1024 + 512 + (x 3).val; omega)
  · intro x
    have hx1 : (x 1).val < 1 := (x 1).isLt
    exact piece_at 1 1024 448 x0 x1 slices_S256x3072_o0_1024_S256x1024 slices_S256x1024_o0_448_S256x64
      shapeCasts_S256x64_S1x1x256x64 x _
      (by show 0 + 1 * (x 2).val = (x 2).val; omega)
      (by show 1024 * 1 + 64 * (7 + 1 * (x 1).val) + (0 + 1 * (x 3).val) = 1024 + 448 + (x 3).val; omega)
  · intro x
    have hx1 : (x 1).val < 1 := (x 1).isLt
    exact piece_at 1 1024 384 x0 x1 slices_S256x3072_o0_1024_S256x1024 slices_S256x1024_o0_384_S256x64
      shapeCasts_S256x64_S1x1x256x64 x _
      (by show 0 + 1 * (x 2).val = (x 2).val; omega)
      (by show 1024 * 1 + 64 * (6 + 1 * (x 1).val) + (0 + 1 * (x 3).val) = 1024 + 384 + (x 3).val; omega)
  · intro x
    have hx1 : (x 1).val < 1 := (x 1).isLt
    exact piece_at 1 1024 320 x0 x1 slices_S256x3072_o0_1024_S256x1024 slices_S256x1024_o0_320_S256x64
      shapeCasts_S256x64_S1x1x256x64 x _
      (by show 0 + 1 * (x 2).val = (x 2).val; omega)
      (by show 1024 * 1 + 64 * (5 + 1 * (x 1).val) + (0 + 1 * (x 3).val) = 1024 + 320 + (x 3).val; omega)
  · intro x
    have hx1 : (x 1).val < 1 := (x 1).isLt
    exact piece_at 1 1024 256 x0 x1 slices_S256x3072_o0_1024_S256x1024 slices_S256x1024_o0_256_S256x64
      shapeCasts_S256x64_S1x1x256x64 x _
      (by show 0 + 1 * (x 2).val = (x 2).val; omega)
      (by show 1024 * 1 + 64 * (4 + 1 * (x 1).val) + (0 + 1 * (x 3).val) = 1024 + 256 + (x 3).val; omega)
  · intro x
    have hx1 : (x 1).val < 1 := (x 1).isLt
    exact piece_at 1 1024 192 x0 x1 slices_S256x3072_o0_1024_S256x1024 slices_S256x1024_o0_192_S256x64
      shapeCasts_S256x64_S1x1x256x64 x _
      (by show 0 + 1 * (x 2).val = (x 2).val; omega)
      (by show 1024 * 1 + 64 * (3 + 1 * (x 1).val) + (0 + 1 * (x 3).val) = 1024 + 192 + (x 3).val; omega)
  · intro x
    have hx1 : (x 1).val < 1 := (x 1).isLt
    exact piece_at 1 1024 128 x0 x1 slices_S256x3072_o0_1024_S256x1024 slices_S256x1024_o0_128_S256x64
      shapeCasts_S256x64_S1x1x256x64 x _
      (by show 0 + 1 * (x 2).val = (x 2).val; omega)
      (by show 1024 * 1 + 64 * (2 + 1 * (x 1).val) + (0 + 1 * (x 3).val) = 1024 + 128 + (x 3).val; omega)
  · intro x
    have hx1 : (x 1).val < 1 := (x 1).isLt
    exact piece_at 1 1024 64 x0 x1 slices_S256x3072_o0_1024_S256x1024 slices_S256x1024_o0_64_S256x64
      shapeCasts_S256x64_S1x1x256x64 x _
      (by show 0 + 1 * (x 2).val = (x 2).val; omega)
      (by show 1024 * 1 + 64 * (1 + 1 * (x 1).val) + (0 + 1 * (x 3).val) = 1024 + 64 + (x 3).val; omega)
  · intro x
    have hx1 : (x 1).val < 1 := (x 1).isLt
    exact piece_at 1 1024 0 x0 x1 slices_S256x3072_o0_1024_S256x1024 slices_S256x1024_o0_0_S256x64
      shapeCasts_S256x64_S1x1x256x64 x _
      (by show 0 + 1 * (x 2).val = (x 2).val; omega)
      (by show 1024 * 1 + 64 * (0 + 1 * (x 1).val) + (0 + 1 * (x 3).val) = 1024 + 0 + (x 3).val; omega)

end Cert.KernelIdeal.Reg0
end
-- ==== Proof.Region0BlockV.lean ====
import proofs.«170127_j31112743092498_2_alg».proof.Proof.Region0Block

set_option maxRecDepth 16384

noncomputable section

namespace Cert.KernelIdeal.Reg0

open Cert.KernelIdeal Cert.KernelIdeal.Gen Idealize.ShloMosaic Idealize.ShloMosaic.ValueIdx

/-! ## The 16 stores of output window 4

Each store writes one head: the cast of 64 columns of part 2 of the product, at head h of the block.  Piece by
piece the payload is `blockOf 2` at the piece's place, and the pieces tile the block. -/

/-- Output window 4's buffer after the body is part 2 of the projected row block, head by head. -/
theorem out0_4_eq (x0 : Vec Ideal S256x1024 .f32) (x1 : Vec Ideal S3072x1024 .bf16) :
    out0_4 (F := Ideal) x0 x1 = blockOf 2 x0 x1 := by
  funext y
  unfold out0_4
  rw [ld_x0, ld_x1]
  refine View.canon_apply_of_pieces (blockOf 2 x0 x1) _ ?_ y (cover0_4 _ _ _ _ _ _ _ _ _ _ _ _ _ _ _ _ y)
  intro p hp
  simp only [List.mem_cons, List.mem_singleton, List.not_mem_nil, or_false] at hp
  rcases hp with rfl | rfl | rfl | rfl | rfl | rfl | rfl | rfl | rfl | rfl | rfl | rfl | rfl | rfl | rfl | rfl
  · intro x
    have hx1 : (x 1).val < 1 := (x 1).isLt
    exact piece_at 2 2048 960 x0 x1 slices_S256x3072_o0_2048_S256x1024 slices_S256x1024_o0_960_S256x64
      shapeCasts_S256x64_S1x1x256x64 x _
      (by show 0 + 1 * (x 2).val = (x 2).val; omega)
      (by show 1024 * 2 + 64 * (15 + 1 * (x 1).val) + (0 + 1 * (x 3).val) = 2048 + 960 + (x 3).val; omega)
  · intro x
    have hx1 : (x 1).val < 1 := (x 1).isLt
    exact piece_at 2 2048 896 x0 x1 slices_S256x3072_o0_2048_S256x1024 slices_S256x1024_o0_896_S256x64
      shapeCasts_S256x64_S1x1x256x64 x _
      (by show 0 + 1 * (x 2).val = (x 2).val; omega)
      (by show 1024 * 2 + 64 * (14 + 1 * (x 1).val) + (0 + 1 * (x 3).val) = 2048 + 896 + (x 3).val; omega)
  · intro x
    have hx1 : (x 1).val < 1 := (x 1).isLt
    exact piece_at 2 2048 832 x0 x1 slices_S256x3072_o0_2048_S256x1024 slices_S256x1024_o0_832_S256x64
      shapeCasts_S256x64_S1x1x256x64 x _
      (by show 0 + 1 * (x 2).val = (x 2).val; omega)
      (by show 1024 * 2 + 64 * (13 + 1 * (x 1).val) + (0 + 1 * (x 3).val) = 2048 + 832 + (x 3).val; omega)
  · intro x
    have hx1 : (x 1).val < 1 := (x 1).isLt
    exact piece_at 2 2048 768 x0 x1 slices_S256x3072_o0_2048_S256x1024 slices_S256x1024_o0_768_S256x64
      shapeCasts_S256x64_S1x1x256x64 x _
      (by show 0 + 1 * (x 2).val = (x 2).val; omega)
      (by show 1024 * 2 + 64 * (12 + 1 * (x 1).val) + (0 + 1 * (x 3).val) = 2048 + 768 + (x 3).val; omega)
  · intro x
    have hx1 : (x 1).val < 1 := (x 1).isLt
    exact piece_at 2 2048 704 x0 x1 slices_S256x3072_o0_2048_S256x1024 slices_S256x1024_o0_704_S256x64
      shapeCasts_S256x64_S1x1x256x64 x _
      (by show 0 + 1 * (x 2).val = (x 2).val; omega)
      (by show 1024 * 2 + 64 * (11 + 1 * (x 1).val) + (0 + 1 * (x 3).val) = 2048 + 704 + (x 3).val; omega)
  · intro x
    have hx1 : (x 1).val < 1 := (x 1).isLt
    exact piece_at 2 2048 640 x0 x1 slices_S256x3072_o0_2048_S256x1024 slices_S256x1024_o0_640_S256x64
      shapeCasts_S256x64_S1x1x256x64 x _
      (by show 0 + 1 * (x 2).val = (x 2).val; omega)
      (by show 1024 * 2 + 64 * (10 + 1 * (x 1).val) + (0 + 1 * (x 3).val) = 2048 + 640 + (x 3).val; omega)
  · intro x
    have hx1 : (x 1).val < 1 := (x 1).isLt
    exact piece_at 2 2048 576 x0 x1 slices_S256x3072_o0_2048_S256x1024 slices_S256x1024_o0_576_S256x64
      shapeCasts_S256x64_S1x1x256x64 x _
      (by show 0 + 1 * (x 2).val = (x 2).val; omega)
      (by show 1024 * 2 + 64 * (9 + 1 * (x 1).val) + (0 + 1 * (x 3).val) = 2048 + 576 + (x 3).val; omega)
  · intro x
    have hx1 : (x 1).val < 1 := (x 1).isLt
    exact piece_at 2 2048 512 x0 x1 slices_S256x3072_o0_2048_S256x1024 slices_S256x1024_o0_512_S256x64
      shapeCasts_S256x64_S1x1x256x64 x _
      (by show 0 + 1 * (x 2).val = (x 2).val; omega)
      (by show 1024 * 2 + 64 * (8 + 1 * (x 1).val) + (0 + 1 * (x 3).val) = 2048 + 512 + (x 3).val; omega)
  · intro x
    have hx1 : (x 1).val < 1 := (x 1).isLt
    exact piece_at 2 2048 448 x0 x1 slices_S256x3072_o0_2048_S256x1024 slices_S256x1024_o0_448_S256x64
      shapeCasts_S256x64_S1x1x256x64 x _
      (by show 0 + 1 * (x 2).val = (x 2).val; omega)
      (by show 1024 * 2 + 64 * (7 + 1 * (x 1).val) + (0 + 1 * (x 3).val) = 2048 + 448 + (x 3).val; omega)
  · intro x
    have hx1 : (x 1).val < 1 := (x 1).isLt
    exact piece_at 2 2048 384 x0 x1 slices_S256x3072_o0_2048_S256x1024 slices_S256x1024_o0_384_S256x64
      shapeCasts_S256x64_S1x1x256x64 x _
      (by show 0 + 1 * (x 2).val = (x 2).val; omega)
      (by show 1024 * 2 + 64 * (6 + 1 * (x 1).val) + (0 + 1 * (x 3).val) = 2048 + 384 + (x 3).val; omega)
  · intro x
    have hx1 : (x 1).val < 1 := (x 1).isLt
    exact piece_at 2 2048 320 x0 x1 slices_S256x3072_o0_2048_S256x1024 slices_S256x1024_o0_320_S256x64
      shapeCasts_S256x64_S1x1x256x64 x _
      (by show 0 + 1 * (x 2).val = (x 2).val; omega)
      (by show 1024 * 2 + 64 * (5 + 1 * (x 1).val) + (0 + 1 * (x 3).val) = 2048 + 320 + (x 3).val; omega)
  · intro x
    have hx1 : (x 1).val < 1 := (x 1).isLt
    exact piece_at 2 2048 256 x0 x1 slices_S256x3072_o0_2048_S256x1024 slices_S256x1024_o0_256_S256x64
      shapeCasts_S256x64_S1x1x256x64 x _
      (by show 0 + 1 * (x 2).val = (x 2).val; omega)
      (by show 1024 * 2 + 64 * (4 + 1 * (x 1).val) + (0 + 1 * (x 3).val) = 2048 + 256 + (x 3).val; omega)
  · intro x
    have hx1 : (x 1).val < 1 := (x 1).isLt
    exact piece_at 2 2048 192 x0 x1 slices_S256x3072_o0_2048_S256x1024 slices_S256x1024_o0_192_S256x64
      shapeCasts_S256x64_S1x1x256x64 x _
      (by show 0 + 1 * (x 2).val = (x 2).val; omega)
      (by show 1024 * 2 + 64 * (3 + 1 * (x 1).val) + (0 + 1 * (x 3).val) = 2048 + 192 + (x 3).val; omega)
  · intro x
    have hx1 : (x 1).val < 1 := (x 1).isLt
    exact piece_at 2 2048 128 x0 x1 slices_S256x3072_o0_2048_S256x1024 slices_S256x1024_o0_128_S256x64
      shapeCasts_S256x64_S1x1x256x64 x _
      (by show 0 + 1 * (x 2).val = (x 2).val; omega)
      (by show 1024 * 2 + 64 * (2 + 1 * (x 1).val) + (0 + 1 * (x 3).val) = 2048 + 128 + (x 3).val; omega)
  · intro x
    have hx1 : (x 1).val < 1 := (x 1).isLt
    exact piece_at 2 2048 64 x0 x1 slices_S256x3072_o0_2048_S256x1024 slices_S256x1024_o0_64_S256x64
      shapeCasts_S256x64_S1x1x256x64 x _
      (by show 0 + 1 * (x 2).val = (x 2).val; omega)
      (by show 1024 * 2 + 64 * (1 + 1 * (x 1).val) + (0 + 1 * (x 3).val) = 2048 + 64 + (x 3).val; omega)
  · intro x
    have hx1 : (x 1).val < 1 := (x 1).isLt
    exact piece_at 2 2048 0 x0 x1 slices_S256x3072_o0_2048_S256x1024 slices_S256x1024_o0_0_S256x64
      shapeCasts_S256x64_S1x1x256x64 x _
      (by show 0 + 1 * (x 2).val = (x 2).val; omega)
      (by show 1024 * 2 + 64 * (0 + 1 * (x 1).val) + (0 + 1 * (x 3).val) = 2048 + 0 + (x 3).val; omega)

end Cert.KernelIdeal.Reg0
end
-- ==== Proof.Region0.lean ====
import proofs.«170127_j31112743092498_2_alg».proof.Proof.Region0BlockQ
import proofs.«170127_j31112743092498_2_alg».proof.Proof.Region0BlockK
import proofs.«170127_j31112743092498_2_alg».proof.Proof.Region0BlockV
import Idealize.ShloMosaic.Lib.Pipeline.Value

/-
  The first kernel region in closed form.  The region walks 16 grid points; point t takes rows 256 t … 256 t + 255 of
  the flattened input X : [4096,1024] and the whole weight W : [3072,1024], forms the [256,3072] product X·Wᵀ, and
  writes its three 1024-column parts (queries, keys, values), each cut into 16 heads of 64 lanes, to block
  (t / 8, ·, t % 8, ·) of three [2,16,2048,64] arrays.  Row 256 t + r of X is (batch t / 8, token 256 (t % 8) + r), so
  after the 16 points array s holds, at (b, h, tok, d), the sum ∑_e X(2048 b + tok, e) · W(1024 s + 64 h + d, e):
  part s of the fused projection in head layout.  The blocks of the 16 points tile each array, so every entry is
  written and the closed form holds everywhere.
-/
set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat)

/-- Part `s` of the fused projection in head layout, from the flattened rows X : [4096,1024] (row 2048 b + t)
    and the weight W : [3072,1024]: entry (b, h, t, d) is ∑_e X(2048 b + t, e) · W(1024 s + 64 h + d, e). -/
def G0 (s : Fin 3) (X : S4096x1024.Idx → EReal) (W : S3072x1024.Idx → EReal) : S2x16x2048x64.Idx → EReal :=
  fun i => ∑ d : Fin 1024,
    X (ix2 (⟨2048 * (i 0).val + (i 2).val, by have h0 : (i 0).val < 2 := (i 0).isLt; have h2 : (i 2).val < 2048 := (i 2).isLt; omega⟩ : Fin 4096) d)
      * W (ix2 (Cert.Attn.col s (i 1) (i 3)) d)

/-- `G0` at an index, with the row and the column named. -/
theorem G0_at (s : Fin 3) (X : S4096x1024.Idx → EReal) (W : S3072x1024.Idx → EReal) (i : S2x16x2048x64.Idx)
    (R : Fin 4096) (C : Fin 3072) (hR : R.val = 2048 * (i 0).val + (i 2).val)
    (hC : C.val = 1024 * s.val + 64 * (i 1).val + (i 3).val) :
    G0 s X W i = ∑ d : Fin 1024, X (ix2 R d) * W (ix2 C d) := by
  have eR : (⟨2048 * (i 0).val + (i 2).val, by have h0 : (i 0).val < 2 := (i 0).isLt; have h2 : (i 2).val < 2048 := (i 2).isLt; omega⟩ : Fin 4096) = R :=
    Fin.ext hR.symm
  have eC : Cert.Attn.col s (i 1) (i 3) = C := Fin.ext hC.symm
  unfold G0
  rw [eR, eC]

/-- `G0` opened: the sum at an index. -/
theorem G0_apply (s : Fin 3) (X : S4096x1024.Idx → EReal) (W : S3072x1024.Idx → EReal) (i : S2x16x2048x64.Idx) :
    G0 s X W i = ∑ d : Fin 1024,
      X (ix2 (⟨2048 * (i 0).val + (i 2).val, by have h0 : (i 0).val < 2 := (i 0).isLt; have h2 : (i 2).val < 2048 := (i 2).isLt; omega⟩ : Fin 4096) d) * W (ix2 (Cert.Attn.col s (i 1) (i 3)) d) := rfl

/-- When X is x : [2,2048,1024] with its two leading axes merged (row 2048 b + t holds x(b, t, ·)), `G0 s X W` is
    part `s` of the specification's fused projection, in head layout. -/
theorem G0_eq_part (s : Fin 3) (x : Cert.Attn.SX.Idx → EReal) (X : S4096x1024.Idx → EReal) (W : S3072x1024.Idx → EReal)
    (hX : ∀ (b : Fin 2) (t : Fin 2048) (d : Fin 1024) (R : Fin 4096), R.val = 2048 * b.val + t.val →
      X (ix2 R d) = x (ix3 b t d))
    (i : S2x16x2048x64.Idx) :
    G0 s X W i = Cert.Attn.part x W s (i 0) (i 1) (i 2) (i 3) := by
  unfold G0 Cert.Attn.part Cert.Attn.proj
  exact Finset.sum_congr rfl fun d _ => congrArg (· * W (ix2 (Cert.Attn.col s (i 1) (i 3)) d)) (hX (i 0) (i 2) d _ rfl)

/-- The index maps over the 16 grid points: the row block of point t is t; the weight is whole; the output
    block of point t is (t / 8, 0, t % 8, 0). -/
theorem idx_facts : ∀ t : Fin cfg0.N, t.val < 16
    ∧ win0_0.index t (0 : Fin 2) = t.val ∧ win0_0.index t (1 : Fin 2) = 0
    ∧ win0_1.index t (0 : Fin 2) = 0 ∧ win0_1.index t (1 : Fin 2) = 0
    ∧ win0_2.index t (0 : Fin 4) = t.val / 8 ∧ win0_2.index t (1 : Fin 4) = 0
    ∧ win0_2.index t (2 : Fin 4) = t.val % 8 ∧ win0_2.index t (3 : Fin 4) = 0
    ∧ win0_3.index t (0 : Fin 4) = t.val / 8 ∧ win0_3.index t (1 : Fin 4) = 0
    ∧ win0_3.index t (2 : Fin 4) = t.val % 8 ∧ win0_3.index t (3 : Fin 4) = 0
    ∧ win0_4.index t (0 : Fin 4) = t.val / 8 ∧ win0_4.index t (1 : Fin 4) = 0
    ∧ win0_4.index t (2 : Fin 4) = t.val % 8 ∧ win0_4.index t (3 : Fin 4) = 0 :=
  (by decide +kernel : ∀ t : Fin grid0.N, _)

/-- Every (batch, row block) pair is a grid point: t = 8 b + q. -/
theorem point_of : ∀ (b : Fin 2) (q : Fin 8), ∃ t : Fin cfg0.N, t.val = 8 * b.val + q.val :=
  (by decide +kernel : ∀ (b : Fin 2) (q : Fin 8), ∃ t : Fin grid0.N, t.val = 8 * b.val + q.val)

variable (V : (c : Dev nD) → (b : Ref sig .tc) → Buf (Elt Ideal) ((c : Thread nD τ).loc b))

/-- The row block of point t, read where it lies in the flattened rows. -/
theorem rows_read (c : Dev nD) (t : Fin cfg0.N) (r : Fin 256) (e : Fin 1024) :
    iblk0 (F := Ideal) V c 0 t (ix2 r e)
      = (V c main_v2 : S4096x1024.Idx → EReal) (ix2 (⟨256 * t.val + r.val, by have := (idx_facts t).1; omega⟩ : Fin 4096) e) := by
  obtain ⟨ht, f00, f01, -⟩ := idx_facts t
  show (V c main_v2 : S4096x1024.Idx → EReal) (((cfg0.win 0).blk t).view.emb (ix2 r e)) = _
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * e.val = e.val; omega

/-- The weight's block is the whole weight at every point. -/
theorem weight_read (c : Dev nD) (t : Fin cfg0.N) (k : Fin 3072) (e : Fin 1024) :
    iblk0 (F := Ideal) V c 1 t (ix2 k e) = (V c main_v0 : S3072x1024.Idx → EReal) (ix2 k e) := by
  obtain ⟨ht, f00, f01, f10, f11, -⟩ := idx_facts t
  show (V c main_v0 : S3072x1024.Idx → EReal) (((cfg0.win 1).blk t).view.emb (ix2 k e)) = _
  refine congrArg _ (funext fun a => Fin.ext ?_)
  match a with
  | ⟨0, _⟩ => show win0_1.index t (0 : Fin 2) * 3072 + 1 * k.val = k.val; omega
  | ⟨1, _⟩ => show win0_1.index t (1 : Fin 2) * 1024 + 1 * e.val = e.val; omega

/-! ## Output window 2 (part 0) -/

/-- What point t writes back to window 2's array is block t of part 0 of the projection. -/
theorem flushed_q (c : Dev nD) (t : Fin cfg0.N) :
    (dat0 (F := Ideal) V c).flushed 2 t
      = ((cfg0.win 2).blk t).view.read (Elt Ideal) (G0 0 (V c main_v2) (V c main_v0)) := by
  show (cfg0.win 2).cut (grid0.coords t) ((dat0 (F := Ideal) V c).after 2 t) = _
  rw [after0_2]
  funext j
  show out0_2 (F := Ideal) (iblk0 V c 0 t) (iblk0 V c 1 t) j
    = G0 0 (V c main_v2) (V c main_v0) (((cfg0.win 2).blk t).view.emb j)
  obtain ⟨ht, -, -, -, -, f0, f1, f2, f3, -, -, -, -, -, -, -, -⟩ := idx_facts t
  have hj0 : (j 0).val < 1 := (j 0).isLt
  have hj2 : (j 2).val < 256 := (j 2).isLt
  refine (congrFun (out0_2_eq (iblk0 V c 0 t) (iblk0 V c 1 t)) j).trans ?_
  refine Eq.trans ?_ (G0_at 0 _ _ (((cfg0.win 2).blk t).view.emb j) ⟨256 * t.val + (j 2).val, by omega⟩
    (Cert.Attn.col 0 (j 1) (j 3)) ?_ ?_).symm
  · unfold blockOf
    exact Finset.sum_congr rfl fun e _ => congrArg₂ (· * ·) (rows_read V c t (j 2) e) (weight_read V c t _ e)
  · show 256 * t.val + (j 2).val
      = 2048 * (win0_2.index t (0 : Fin 4) * 1 + 1 * (j 0).val) + (win0_2.index t (2 : Fin 4) * 256 + 1 * (j 2).val)
    omega
  · show 1024 * 0 + 64 * (j 1).val + (j 3).val
      = 1024 * 0 + 64 * (win0_2.index t (1 : Fin 4) * 16 + 1 * (j 1).val) + (win0_2.index t (3 : Fin 4) * 64 + 1 * (j 3).val)
    omega

/-- An index of the array is in point t's block iff each coordinate is in the block's range on its axis. -/
theorem mem_blk_q (t : Fin cfg0.N) (i : S2x16x2048x64.Idx) :
    i ∈ ((cfg0.win 2).blk t).view.set ↔ ∀ a : Fin 4, win0_2.index t a * S1x16x256x64.size a ≤ (i a).val
      ∧ (i a).val < win0_2.index t a * S1x16x256x64.size a + S1x16x256x64.size a := by
  show i ∈ ((View.whole main_v3_0).slice (win0_2.rect t)).set ↔ _
  rw [View.set_slice_whole, Rect.mem_set_unit]
  exact Iff.rfl

/-- Every index (b, h, tok, d) lies in the block of point 8 b + tok / 256. -/
theorem cover_q (i : S2x16x2048x64.Idx) :
    ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, et⟩ := point_of ⟨(i 0).val, h0⟩ ⟨(i 2).val / 256, by omega⟩
  have et' : t.val = 8 * (i 0).val + (i 2).val / 256 := et
  obtain ⟨ht, -, -, -, -, f0, f1, f2, f3, -, -, -, -, -, -, -, -⟩ := idx_facts t
  refine ⟨t, flush0_2 t, ?_⟩
  rw [mem_blk_q]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 64 ≤ (i 3).val ∧ (i 3).val < win0_2.index t (3 : Fin 4) * 64 + 64; omega

/-- The array of window 2 after the region: part 0 of the fused projection of the entry contents, in head layout. -/
theorem final_q (c : Dev nD) :
    (dat0 (F := Ideal) V c).arrAt 2 cfg0.N = G0 0 (V c main_v2) (V c main_v0) :=
  (dat0 (F := Ideal) V c).arrAt_eq_of_cover 2 (G0 0 (V c main_v2) (V c main_v0))
    (fun t _ => flushed_q V c t) cover_q

/-! ## Output window 3 (part 1) -/

/-- What point t writes back to window 3's array is block t of part 1 of the projection. -/
theorem flushed_k (c : Dev nD) (t : Fin cfg0.N) :
    (dat0 (F := Ideal) V c).flushed 3 t
      = ((cfg0.win 3).blk t).view.read (Elt Ideal) (G0 1 (V c main_v2) (V c main_v0)) := by
  show (cfg0.win 3).cut (grid0.coords t) ((dat0 (F := Ideal) V c).after 3 t) = _
  rw [after0_3]
  funext j
  show out0_3 (F := Ideal) (iblk0 V c 0 t) (iblk0 V c 1 t) j
    = G0 1 (V c main_v2) (V c main_v0) (((cfg0.win 3).blk t).view.emb j)
  obtain ⟨ht, -, -, -, -, -, -, -, -, f0, f1, f2, f3, -, -, -, -⟩ := idx_facts t
  have hj0 : (j 0).val < 1 := (j 0).isLt
  have hj2 : (j 2).val < 256 := (j 2).isLt
  refine (congrFun (out0_3_eq (iblk0 V c 0 t) (iblk0 V c 1 t)) j).trans ?_
  refine Eq.trans ?_ (G0_at 1 _ _ (((cfg0.win 3).blk t).view.emb j) ⟨256 * t.val + (j 2).val, by omega⟩
    (Cert.Attn.col 1 (j 1) (j 3)) ?_ ?_).symm
  · unfold blockOf
    exact Finset.sum_congr rfl fun e _ => congrArg₂ (· * ·) (rows_read V c t (j 2) e) (weight_read V c t _ e)
  · show 256 * t.val + (j 2).val
      = 2048 * (win0_3.index t (0 : Fin 4) * 1 + 1 * (j 0).val) + (win0_3.index t (2 : Fin 4) * 256 + 1 * (j 2).val)
    omega
  · show 1024 * 1 + 64 * (j 1).val + (j 3).val
      = 1024 * 1 + 64 * (win0_3.index t (1 : Fin 4) * 16 + 1 * (j 1).val) + (win0_3.index t (3 : Fin 4) * 64 + 1 * (j 3).val)
    omega

/-- An index of the array is in point t's block iff each coordinate is in the block's range on its axis. -/
theorem mem_blk_k (t : Fin cfg0.N) (i : S2x16x2048x64.Idx) :
    i ∈ ((cfg0.win 3).blk t).view.set ↔ ∀ a : Fin 4, win0_3.index t a * S1x16x256x64.size a ≤ (i a).val
      ∧ (i a).val < win0_3.index t a * S1x16x256x64.size a + S1x16x256x64.size a := by
  show i ∈ ((View.whole main_v3_1).slice (win0_3.rect t)).set ↔ _
  rw [View.set_slice_whole, Rect.mem_set_unit]
  exact Iff.rfl

/-- Every index (b, h, tok, d) lies in the block of point 8 b + tok / 256. -/
theorem cover_k (i : S2x16x2048x64.Idx) :
    ∃ t : Fin cfg0.N, (cfg0.win 3).flush t = true ∧ i ∈ ((cfg0.win 3).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, et⟩ := point_of ⟨(i 0).val, h0⟩ ⟨(i 2).val / 256, by omega⟩
  have et' : t.val = 8 * (i 0).val + (i 2).val / 256 := et
  obtain ⟨ht, -, -, -, -, -, -, -, -, f0, f1, f2, f3, -, -, -, -⟩ := idx_facts t
  refine ⟨t, flush0_3 t, ?_⟩
  rw [mem_blk_k]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- The array of window 3 after the region: part 1 of the fused projection of the entry contents, in head layout. -/
theorem final_k (c : Dev nD) :
    (dat0 (F := Ideal) V c).arrAt 3 cfg0.N = G0 1 (V c main_v2) (V c main_v0) :=
  (dat0 (F := Ideal) V c).arrAt_eq_of_cover 3 (G0 1 (V c main_v2) (V c main_v0))
    (fun t _ => flushed_k V c t) cover_k

/-! ## Output window 4 (part 2) -/

/-- What point t writes back to window 4's array is block t of part 2 of the projection. -/
theorem flushed_v (c : Dev nD) (t : Fin cfg0.N) :
    (dat0 (F := Ideal) V c).flushed 4 t
      = ((cfg0.win 4).blk t).view.read (Elt Ideal) (G0 2 (V c main_v2) (V c main_v0)) := by
  show (cfg0.win 4).cut (grid0.coords t) ((dat0 (F := Ideal) V c).after 4 t) = _
  rw [after0_4]
  funext j
  show out0_4 (F := Ideal) (iblk0 V c 0 t) (iblk0 V c 1 t) j
    = G0 2 (V c main_v2) (V c main_v0) (((cfg0.win 4).blk t).view.emb j)
  obtain ⟨ht, -, -, -, -, -, -, -, -, -, -, -, -, f0, f1, f2, f3⟩ := idx_facts t
  have hj0 : (j 0).val < 1 := (j 0).isLt
  have hj2 : (j 2).val < 256 := (j 2).isLt
  refine (congrFun (out0_4_eq (iblk0 V c 0 t) (iblk0 V c 1 t)) j).trans ?_
  refine Eq.trans ?_ (G0_at 2 _ _ (((cfg0.win 4).blk t).view.emb j) ⟨256 * t.val + (j 2).val, by omega⟩
    (Cert.Attn.col 2 (j 1) (j 3)) ?_ ?_).symm
  · unfold blockOf
    exact Finset.sum_congr rfl fun e _ => congrArg₂ (· * ·) (rows_read V c t (j 2) e) (weight_read V c t _ e)
  · show 256 * t.val + (j 2).val
      = 2048 * (win0_4.index t (0 : Fin 4) * 1 + 1 * (j 0).val) + (win0_4.index t (2 : Fin 4) * 256 + 1 * (j 2).val)
    omega
  · show 1024 * 2 + 64 * (j 1).val + (j 3).val
      = 1024 * 2 + 64 * (win0_4.index t (1 : Fin 4) * 16 + 1 * (j 1).val) + (win0_4.index t (3 : Fin 4) * 64 + 1 * (j 3).val)
    omega

/-- An index of the array is in point t's block iff each coordinate is in the block's range on its axis. -/
theorem mem_blk_v (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v3_2).slice (win0_4.rect t)).set ↔ _
  rw [View.set_slice_whole, Rect.mem_set_unit]
  exact Iff.rfl

/-- Every index (b, h, tok, d) lies in the block of point 8 b + tok / 256. -/
theorem cover_v (i : S2x16x2048x64.Idx) :
    ∃ t : Fin cfg0.N, (cfg0.win 4).flush t = true ∧ i ∈ ((cfg0.win 4).blk t).view.set := by
  have h0 : (i 0).val < 2 := (i 0).isLt
  have h1 : (i 1).val < 16 := (i 1).isLt
  have h2 : (i 2).val < 2048 := (i 2).isLt
  have h3 : (i 3).val < 64 := (i 3).isLt
  obtain ⟨t, et⟩ := point_of ⟨(i 0).val, h0⟩ ⟨(i 2).val / 256, by omega⟩
  have et' : t.val = 8 * (i 0).val + (i 2).val / 256 := et
  obtain ⟨ht, -, -, -, -, -, -, -, -, -, -, -, -, f0, f1, f2, f3⟩ := idx_facts t
  refine ⟨t, flush0_4 t, ?_⟩
  rw [mem_blk_v]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- The array of window 4 after the region: part 2 of the fused projection of the entry contents, in head layout. -/
theorem final_v (c : Dev nD) :
    (dat0 (F := Ideal) V c).arrAt 4 cfg0.N = G0 2 (V c main_v2) (V c main_v0) :=
  (dat0 (F := Ideal) V c).arrAt_eq_of_cover 4 (G0 2 (V c main_v2) (V c main_v0))
    (fun t _ => flushed_v V c t) cover_v

end Cert.KernelIdeal.Reg0
end
-- ==== Proof.KernelSide.lean ====
/-
  The kernel's result is the whole layer with the weighted sum divided once.

  The three regions' closed forms (the head-layout projections, the attention slabs, the flat output rows) and the
  re-layouts between them are exactly the equations under which the stages compose to the layer: the buffer the last
  reshape writes holds, at every index, the output projection of the attention of the projected heads.
-/
import proofs.«170127_j31112743092498_2_alg».proof.Proof.Gen.KernelIdeal.Frame
import proofs.«170127_j31112743092498_2_alg».proof.Proof.Glue
import proofs.«170127_j31112743092498_2_alg».proof.Proof.Compose
import proofs.«170127_j31112743092498_2_alg».proof.Proof.Region1
import proofs.«170127_j31112743092498_2_alg».proof.Proof.Region2Final
import proofs.«170127_j31112743092498_2_alg».proof.Proof.Region0
set_option maxRecDepth 16384

noncomputable section

namespace Cert.KernelIdeal.KernelSide

open Cert.KernelIdeal Cert.KernelIdeal.Gen Idealize.ShloMosaic Idealize.ShloMosaic.TcCoe Idealize.ShloMosaic.ValueIdx Idealize.SL.Sem
open Cert.KernelIdeal.Glue

variable (m : (ℓ : Loc nD τ sig) → Buf (Elt Ideal) ℓ) (ρ : Dev nD → PrngReg) (c : Dev nD)

/-- Region 0's three results (queries, keys, values in head layout) as the region leaves them. -/
def P (s : Fin 3) : Cert.Attn.S4.Idx → EReal :=
  match s with
  | ⟨0, _⟩ => W2 m ρ c (Proc.devRef .tc main_v3_0)
  | ⟨1, _⟩ => W2 m ρ c (Proc.devRef .tc main_v3_1)
  | ⟨2, _⟩ => W2 m ρ c (Proc.devRef .tc main_v3_2)

/-- Region 1's three operands (the same arrays with batch and head merged). -/
def Sl (s : Fin 3) : Cert.Attn.S3.Idx → EReal :=
  match s with
  | ⟨0, _⟩ => W3 m ρ c (Proc.devRef .tc main_v4)
  | ⟨1, _⟩ => W3 m ρ c (Proc.devRef .tc main_v5)
  | ⟨2, _⟩ => W3 m ρ c (Proc.devRef .tc main_v6)

/-- The result buffer is the layer (dividing once), given the closed forms of regions 0 and 2. -/
theorem kernel_value_of
    (hq : (dat0 (F := Ideal) (V1 m ρ) c).arrAt 2 cfg0.N = Cert.Attn.projFlat 0 (V1 m ρ c main_v2) (V1 m ρ c main_v0))
    (hk : (dat0 (F := Ideal) (V1 m ρ) c).arrAt 3 cfg0.N = Cert.Attn.projFlat 1 (V1 m ρ c main_v2) (V1 m ρ c main_v0))
    (hv : (dat0 (F := Ideal) (V1 m ρ) c).arrAt 4 cfg0.N = Cert.Attn.projFlat 2 (V1 m ρ c main_v2) (V1 m ρ c main_v0))
    (ho : (dat2 (F := Ideal) (V5 m ρ) c).arrAt 2 cfg2.N = Cert.Attn.outFlat (V5 m ρ c main_v8) (V5 m ρ c main_v1)) :
    W7 m ρ c (Proc.devRef .tc main_v10)
      = Cert.Attn.outK (m ((c.tc : Thread nD τ).loc main_arg0)) (m ((c.tc : Thread nD τ).loc main_arg1))
          (m ((c.tc : Thread nD τ).loc main_arg2)) := by
  refine Cert.Attn.compose _ _ _ (W1 m ρ c (Proc.devRef .tc main_v2)) (W1 m ρ c (Proc.devRef .tc main_v0))
    (W5 m ρ c (Proc.devRef .tc main_v1)) (P m ρ c) (Sl m ρ c) (W4 m ρ c (Proc.devRef .tc main_v7))
    (W5 m ρ c (Proc.devRef .tc main_v8)) (W6 m ρ c (Proc.devRef .tc main_v9)) (W7 m ρ c (Proc.devRef .tc main_v10))
    ?_ ?_ ?_ ?_ ?_ ?_ ?_ ?_ ?_
  · exact fun R d => W1_main_v2 m ρ c R d
  · exact fun i => W1_main_v0 m ρ c i
  · exact fun i => W5_main_v1 m ρ c i
  · intro s
    match s with
    | ⟨0, _⟩ => exact (W2_arr m ρ c 2).trans hq
    | ⟨1, _⟩ => exact (W2_arr m ρ c 3).trans hk
    | ⟨2, _⟩ => exact (W2_arr m ρ c 4).trans hv
  · intro s g t d
    match s with
    | ⟨0, _⟩ => exact W3_main_v4 m ρ c g t d
    | ⟨1, _⟩ => exact W3_main_v5 m ρ c g t d
    | ⟨2, _⟩ => exact W3_main_v6 m ρ c g t d
  · exact (W4_arr m ρ c 3).trans (Cert.KernelIdeal.Reg1.final3 (V3 m ρ) c)
  · exact fun b h t d => W5_main_v8 m ρ c b h t d
  · exact (W6_arr m ρ c 2).trans ho
  · exact fun b t e => W7_main_v10 m ρ c b t e

/-- The same with region 2's closed form discharged: only region 0's three closed forms are assumed. -/
theorem kernel_value_of0
    (hq : (dat0 (F := Ideal) (V1 m ρ) c).arrAt 2 cfg0.N = Cert.Attn.projFlat 0 (V1 m ρ c main_v2) (V1 m ρ c main_v0))
    (hk : (dat0 (F := Ideal) (V1 m ρ) c).arrAt 3 cfg0.N = Cert.Attn.projFlat 1 (V1 m ρ c main_v2) (V1 m ρ c main_v0))
    (hv : (dat0 (F := Ideal) (V1 m ρ) c).arrAt 4 cfg0.N = Cert.Attn.projFlat 2 (V1 m ρ c main_v2) (V1 m ρ c main_v0)) :
    W7 m ρ c (Proc.devRef .tc main_v10)
      = Cert.Attn.outK (m ((c.tc : Thread nD τ).loc main_arg0)) (m ((c.tc : Thread nD τ).loc main_arg1))
          (m ((c.tc : Thread nD τ).loc main_arg2)) :=
  kernel_value_of m ρ c hq hk hv (Cert.KernelIdeal.Reg2.final_out (V5 m ρ) c)

/-- THE KERNEL'S RESULT: the buffer the last reshape writes holds the whole layer, the weighted sum divided once, of
    the launch contents of the three arguments. -/
theorem kernel_value :
    W7 m ρ c (Proc.devRef .tc main_v10)
      = Cert.Attn.outK (m ((c.tc : Thread nD τ).loc main_arg0)) (m ((c.tc : Thread nD τ).loc main_arg1))
          (m ((c.tc : Thread nD τ).loc main_arg2)) :=
  kernel_value_of0 m ρ c (Cert.KernelIdeal.Reg0.final_q (V1 m ρ) c) (Cert.KernelIdeal.Reg0.final_k (V1 m ρ) c)
    (Cert.KernelIdeal.Reg0.final_v (V1 m ρ) c)

end Cert.KernelIdeal.KernelSide

end
-- ==== Proof.RefSide.lean ====
/-
  The reference program computes `Cert.Attn.outR`: each of its intermediate arrays is read at explicit coordinates
  (batch b, head h, token t, lane d) and identified with the corresponding quantity of the specification.
-/
import proofs.«170127_j31112743092498_2_alg».proof.Proof.Spec
import proofs.«170127_j31112743092498_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx Cert.Attn

variable (x : (⟨S2x2048x1024, .f32⟩ : BufTy).Contents (Elt Ideal)) (w : (⟨S3072x1024, .f32⟩ : BufTy).Contents (Elt Ideal))
  (wo : (⟨S1024x1024, .f32⟩ : BufTy).Contents (Elt Ideal))

/-! ## The fused projection and its three parts in head layout -/

/-- The fused projection at (b, t, e). -/
theorem v0_eq (b : Fin 2) (t : Fin 2048) (e : Fin 3072) :
    val_main_v0 (F := Ideal) x w (ix3 b t e) = proj x w b t e := by
  rw [val_main_v0_apply]
  unfold proj
  refine Finset.sum_congr rfl fun k _ => ?_
  have el : lidx_main_v0 (ix3 b t e) k = ix3 b t k :=
    funext fun a => by match a with | ⟨0, _⟩ => rfl | ⟨1, _⟩ => rfl | ⟨2, _⟩ => rfl
  have er : ridx_main_v0 (ix3 b t e) k = ix2 e k :=
    funext fun a => by match a with | ⟨0, _⟩ => rfl | ⟨1, _⟩ => rfl
  rw [el, er]

/-- Column 64 h + d of the reshaped, transposed slice at offset 0 is column `col 0 h d` of the projection. -/
theorem idx_q (b : Fin 2) (h : Fin 16) (t : Fin 2048) (d : Fin 64) :
    idx_main_v1 (idx_main_v4 (idx_main_v5 (ix4 b h t d))) = ix3 b t (col 0 h d) := by
  have hb := b.isLt; have hh := h.isLt; have ht := t.isLt; have hd := d.isLt
  funext a; apply Fin.ext
  match a with
  | ⟨0, _⟩ => show ((((b.val * 2048 + t.val) * 16 + h.val) * 64 + d.val) / 2097152) = b.val; omega
  | ⟨1, _⟩ => show ((((b.val * 2048 + t.val) * 16 + h.val) * 64 + d.val) / 1024 % 2048) = t.val; omega
  | ⟨2, _⟩ => show ((((b.val * 2048 + t.val) * 16 + h.val) * 64 + d.val) % 1024) = 1024 * (0 : Fin 3).val + 64 * h.val + d.val; simp only [Fin.val_zero]; omega

theorem idx_k (b : Fin 2) (h : Fin 16) (t : Fin 2048) (d : Fin 64) :
    idx_main_v2 (idx_main_v6 (idx_main_v7 (ix4 b h t d))) = ix3 b t (col 1 h d) := by
  have hb := b.isLt; have hh := h.isLt; have ht := t.isLt; have hd := d.isLt
  funext a; apply Fin.ext
  match a with
  | ⟨0, _⟩ => show ((((b.val * 2048 + t.val) * 16 + h.val) * 64 + d.val) / 2097152) = b.val; omega
  | ⟨1, _⟩ => show ((((b.val * 2048 + t.val) * 16 + h.val) * 64 + d.val) / 1024 % 2048) = t.val; omega
  | ⟨2, _⟩ => show 1024 + ((((b.val * 2048 + t.val) * 16 + h.val) * 64 + d.val) % 1024) = 1024 * (1 : Fin 3).val + 64 * h.val + d.val; simp only [Fin.val_one]; omega

theorem idx_v (b : Fin 2) (h : Fin 16) (t : Fin 2048) (d : Fin 64) :
    idx_main_v3 (idx_main_v8 (idx_main_v9 (ix4 b h t d))) = ix3 b t (col 2 h d) := by
  have hb := b.isLt; have hh := h.isLt; have ht := t.isLt; have hd := d.isLt
  funext a; apply Fin.ext
  match a with
  | ⟨0, _⟩ => show ((((b.val * 2048 + t.val) * 16 + h.val) * 64 + d.val) / 2097152) = b.val; omega
  | ⟨1, _⟩ => show ((((b.val * 2048 + t.val) * 16 + h.val) * 64 + d.val) / 1024 % 2048) = t.val; omega
  | ⟨2, _⟩ => show 2048 + ((((b.val * 2048 + t.val) * 16 + h.val) * 64 + d.val) % 1024) = 1024 * (2 : Fin 3).val + 64 * h.val + d.val; simp only [Fin.val_two]; omega

/-- The queries in head layout. -/
theorem v5_eq (b : Fin 2) (h : Fin 16) (t : Fin 2048) (d : Fin 64) :
    val_main_v5 (F := Ideal) x w (ix4 b h t d) = part x w 0 b h t d := by
  rw [val_main_v5_apply, val_main_v4_apply, val_main_v1_apply, idx_q, v0_eq]
  rfl

/-- The keys in head layout. -/
theorem v7_eq (b : Fin 2) (h : Fin 16) (t : Fin 2048) (d : Fin 64) :
    val_main_v7 (F := Ideal) x w (ix4 b h t d) = part x w 1 b h t d := by
  rw [val_main_v7_apply, val_main_v6_apply, val_main_v2_apply, idx_k, v0_eq]
  rfl

/-- The values in head layout. -/
theorem v9_eq (b : Fin 2) (h : Fin 16) (t : Fin 2048) (d : Fin 64) :
    val_main_v9 (F := Ideal) x w (ix4 b h t d) = part x w 2 b h t d := by
  rw [val_main_v9_apply, val_main_v8_apply, val_main_v3_apply, idx_v, v0_eq]
  rfl

/-! ## Scores, row maximum, weights, normaliser -/

/-- The scaled scores. -/
theorem v12_eq (b : Fin 2) (h : Fin 16) (tq tk : Fin 2048) :
    val_main_v12 (F := Ideal) x w (ix4 b h tq tk) = score (part x w 0) (part x w 1) b h tq tk := by
  rw [val_main_v12_apply, val_main_v10_apply, val_main_v11_apply, val_main_cst_apply, Ideal.mulf_def]
  unfold score scale
  refine congrArg (· * _) (Finset.sum_congr rfl fun k _ => ?_)
  have el : lidx_main_v10 (ix4 b h tq tk) k = ix4 b h tq k :=
    funext fun a => by match a with | ⟨0, _⟩ => rfl | ⟨1, _⟩ => rfl | ⟨2, _⟩ => rfl | ⟨3, _⟩ => rfl
  have er : ridx_main_v10 (ix4 b h tq tk) k = ix4 b h tk k :=
    funext fun a => by match a with | ⟨0, _⟩ => rfl | ⟨1, _⟩ => rfl | ⟨2, _⟩ => rfl | ⟨3, _⟩ => rfl
  rw [el, er, v5_eq, v7_eq]

/-- The word 0xFF800000 is -∞. -/
theorem ofBits_neg_inf : Ideal.ofBits .f32 0xFF800000#32 = (⊥ : EReal) := by
  simp [Ideal.ofBits, Ideal.ieee]

/-- Dropping the key axis of the score array leaves (batch, head, query token). -/
theorem reduces_keys : S2x16x2048x2048.Reduces [3] S2x16x2048 := by decide

/-- The row maximum: the fold of `max` from -∞ over the key tokens. -/
theorem v13_eq (b : Fin 2) (h : Fin 16) (tq : Fin 2048) :
    val_main_v13 (F := Ideal) x w (ix3 b h tq) = rowMax (part x w 0) (part x w 1) b h tq := by
  unfold val_main_v13
  rw [Host.reduce_eq_fold_single (FloatOps.maximumf (F := Ideal) (φ := .f32)) _ _
    reducesTo_S2x16x2048x2048_S2x16x2048_d3 reduces_keys h_S_]
  unfold rowMax
  rw [val_main_cst_0_apply]
  show Finset.fold max (Ideal.ofBits .f32 0xFF800000#32) _ _ = _
  rw [ofBits_neg_inf]
  refine Finset.fold_congr fun (k : Fin 2048) _ => ?_
  show val_main_v12 (F := Ideal) x w _ = _
  rw [← v12_eq x w b h tq k]
  exact congrArg _ (funext fun a => Fin.ext (by
    match a with | ⟨0, _⟩ => rfl | ⟨1, _⟩ => rfl | ⟨2, _⟩ => rfl | ⟨3, _⟩ => rfl))

/-- Taking the maximum with -∞ once more changes nothing. -/
theorem v15_eq (b : Fin 2) (h : Fin 16) (tq : Fin 2048) :
    val_main_v15 (F := Ideal) x w (ix3 b h tq) = rowMax (part x w 0) (part x w 1) b h tq := by
  rw [val_main_v15_apply, val_main_v14_apply, val_main_cst_1_apply, v13_eq, Ideal.maximumf_def]
  show max (Ideal.ofBits .f32 0xFF800000#32) _ = _
  rw [ofBits_neg_inf]
  exact max_bot_left _

/-- The row maximum broadcast along the key axis. -/
theorem v17_eq (b : Fin 2) (h : Fin 16) (tq tk : Fin 2048) :
    val_main_v17 (F := Ideal) x w (ix4 b h tq tk) = rowMax (part x w 0) (part x w 1) b h tq := by
  rw [val_main_v17_apply, val_main_v16_apply, ← v15_eq]
  exact congrArg _ (funext fun a => by match a with | ⟨0, _⟩ => rfl | ⟨1, _⟩ => rfl | ⟨2, _⟩ => rfl)

/-- The unnormalised weights. -/
theorem v19_eq (b : Fin 2) (h : Fin 16) (tq tk : Fin 2048) :
    val_main_v19 (F := Ideal) x w (ix4 b h tq tk) = wexp (part x w 0) (part x w 1) b h tq tk := by
  rw [val_main_v19_apply, val_main_v18_apply, v12_eq, v17_eq, Ideal.subf_def, Ideal.hostUnary_exp_def]
  rfl

/-- The row sum of the weights. -/
theorem v20_eq (b : Fin 2) (h : Fin 16) (tq : Fin 2048) :
    val_main_v20 (F := Ideal) x w (ix3 b h tq) = denom (part x w 0) (part x w 1) b h tq := by
  rw [val_main_v20_apply, val_main_cst_2_apply]
  show Ideal.ofBits .f32 0x00000000#32 + _ = _
  rw [Ideal.ofBits_zero_f32, zero_add]
  unfold denom
  refine Finset.sum_congr rfl fun k _ => ?_
  rw [← v19_eq]
  exact congrArg _ (funext fun a => by match a with | ⟨0, _⟩ => rfl | ⟨1, _⟩ => rfl | ⟨2, _⟩ => rfl | ⟨3, _⟩ => rfl)

/-- The row sum broadcast along the key axis. -/
theorem v22_eq (b : Fin 2) (h : Fin 16) (tq tk : Fin 2048) :
    val_main_v22 (F := Ideal) x w (ix4 b h tq tk) = denom (part x w 0) (part x w 1) b h tq := by
  rw [val_main_v22_apply, val_main_v21_apply, ← v20_eq]
  exact congrArg _ (funext fun a => by match a with | ⟨0, _⟩ => rfl | ⟨1, _⟩ => rfl | ⟨2, _⟩ => rfl)

/-- The normalised weights: every weight divided by the row sum. -/
theorem v23_eq (b : Fin 2) (h : Fin 16) (tq tk : Fin 2048) :
    val_main_v23 (F := Ideal) x w (ix4 b h tq tk)
      = Ideal.div (wexp (part x w 0) (part x w 1) b h tq tk) (denom (part x w 0) (part x w 1) b h tq) := by
  rw [val_main_v23_apply, v19_eq, v22_eq, Ideal.hostDivf_def]

/-! ## Head outputs, merged rows, output projection -/

/-- The head outputs. -/
theorem v24_eq (b : Fin 2) (h : Fin 16) (t : Fin 2048) (d : Fin 64) :
    val_main_v24 (F := Ideal) x w (ix4 b h t d) = attnR (part x w 0) (part x w 1) (part x w 2) b h t d := by
  rw [val_main_v24_apply]
  unfold attnR
  refine Finset.sum_congr rfl fun k _ => ?_
  have el : lidx_main_v24 (ix4 b h t d) k = ix4 b h t k :=
    funext fun a => by match a with | ⟨0, _⟩ => rfl | ⟨1, _⟩ => rfl | ⟨2, _⟩ => rfl | ⟨3, _⟩ => rfl
  have er : ridx_main_v24 (ix4 b h t d) k = ix4 b h k d :=
    funext fun a => by match a with | ⟨0, _⟩ => rfl | ⟨1, _⟩ => rfl | ⟨2, _⟩ => rfl | ⟨3, _⟩ => rfl
  rw [el, er, v23_eq, v9_eq]

/-- Merged column j of row (b, t) comes from head j / 64, lane j % 64. -/
theorem idx_merge (b : Fin 2) (t : Fin 2048) (j : Fin 1024) :
    idx_main_v25 (idx_main_v26 (ix3 b t j)) = ix4 b (headOf j) t (laneOf j) := by
  have hb := b.isLt; have ht := t.isLt; have hj := j.isLt
  funext a; apply Fin.ext
  match a with
  | ⟨0, _⟩ => show (((b.val * 2048 + t.val) * 1024 + j.val) / 2097152) = b.val; omega
  | ⟨1, _⟩ => show (((b.val * 2048 + t.val) * 1024 + j.val) / 64 % 16) = j.val / 64; omega
  | ⟨2, _⟩ => show (((b.val * 2048 + t.val) * 1024 + j.val) / 1024 % 2048) = t.val; omega
  | ⟨3, _⟩ => show (((b.val * 2048 + t.val) * 1024 + j.val) % 64) = j.val % 64; omega

/-- The head outputs laid side by side again. -/
theorem v26_eq (b : Fin 2) (t : Fin 2048) (j : Fin 1024) :
    val_main_v26 (F := Ideal) x w (ix3 b t j)
      = attnR (part x w 0) (part x w 1) (part x w 2) b (headOf j) t (laneOf j) := by
  rw [val_main_v26_apply, val_main_v25_apply, idx_merge, v24_eq]

/-- The reference program computes the layer that divides every weight. -/
theorem ref_eq (x : (⟨S2x2048x1024, .f32⟩ : BufTy).Contents (Elt Ideal)) (w : (⟨S3072x1024, .f32⟩ : BufTy).Contents (Elt Ideal))
    (wo : (⟨S1024x1024, .f32⟩ : BufTy).Contents (Elt Ideal)) :
    Cert.ReferenceIdeal.Read.val_main_v27 (F := Ideal) x w wo = Cert.Attn.outR x w wo := by
  funext i
  obtain ⟨b, t, e, rfl⟩ : ∃ (b : Fin 2) (t : Fin 2048) (e : Fin 1024), i = ix3 b t e := ⟨i 0, i 1, i 2, eq_ix3 i⟩
  rw [val_main_v27_apply]
  show _ = ∑ j : Fin 1024, attnR (part x w 0) (part x w 1) (part x w 2) b (headOf j) t (laneOf j) * wo (ix2 e j)
  refine Finset.sum_congr rfl fun k _ => ?_
  have el : lidx_main_v27 (ix3 b t e) k = ix3 b t k :=
    funext fun a => by match a with | ⟨0, _⟩ => rfl | ⟨1, _⟩ => rfl | ⟨2, _⟩ => rfl
  have er : ridx_main_v27 (ix3 b t e) k = ix2 e k :=
    funext fun a => by match a with | ⟨0, _⟩ => rfl | ⟨1, _⟩ => rfl
  rw [el, er, v26_eq]

end Cert.ReferenceIdeal.RefValue

end
-- ==== Proof.Softmax.lean ====
/-
  Dividing once equals dividing every weight, for finite queries and keys.

  On the extended reals multiplication does not distribute over addition at the infinities, and the quotient has
  corners at a zero or infinite divisor.  For finite queries and keys every score is a real number, so is the row
  maximum (a maximum over a nonempty finite set of reals), every weight is a positive real, and the normaliser is a
  positive real r.  Division by r is then multiplication by the nonnegative real 1/r, which does distribute over a
  finite sum of extended reals (whatever the values are), and the two ways of normalising agree.
-/
import proofs.«170127_j31112743092498_2_alg».proof.Proof.Spec
import Mathlib.Data.EReal.Operations
import Mathlib.Data.EReal.Inv
import Mathlib.Data.Finset.Fold

noncomputable section

namespace Cert.Attn

open Idealize.ShloMosaic Idealize.ShloMosaic.ValueIdx

/-! ## Extended reals that are real numbers -/

/-- An extended real that is (the image of) a real number. -/
def IsReal (a : EReal) : Prop := ∃ r : ℝ, a = (r : EReal)

theorem isReal_iff (a : EReal) : IsReal a ↔ a ≠ ⊤ ∧ a ≠ ⊥ := by
  constructor
  · rintro ⟨r, rfl⟩; exact ⟨EReal.coe_ne_top r, EReal.coe_ne_bot r⟩
  · rintro ⟨h1, h2⟩; exact ⟨a.toReal, (EReal.coe_toReal h1 h2).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of reals is a real. -/
theorem IsReal.sum {ι : Type} (s : Finset ι) (f : ι → EReal) (hf : ∀ i ∈ s, IsReal (f i)) :
    IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The inclusion of the reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Multiplication by a nonnegative real distributes over a finite sum of extended reals, infinite terms
    included. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-! ## The score scale -/

/-- The scale word denotes the real 1/8. -/
theorem scale_eq : scale = ((1 / 8 : ℝ) : EReal) := by
  unfold scale
  simp [Ideal.ofBits, Ideal.ieee, -EReal.coe_mul]; norm_num

theorem scale_isReal : IsReal scale := ⟨_, scale_eq⟩

/-! ## Finite queries and keys give real scores, a real maximum, positive real weights -/

/-- Every entry is a real number. -/
def Fin4 (a : Heads) : Prop := ∀ b h t d, a b h t d ≠ ⊤ ∧ a b h t d ≠ ⊥

section core
variable (q k v : Heads)

theorem score_isReal (hq : Fin4 q) (hk : Fin4 k) (b : Fin 2) (h : Fin 16) (tq tk : Fin 2048) :
    IsReal (score q k b h tq tk) := by
  unfold score
  refine IsReal.mul (IsReal.sum _ _ fun d _ => IsReal.mul ?_ ?_) scale_isReal
  · exact (isReal_iff _).2 (hq b h tq d)
  · exact (isReal_iff _).2 (hk b h tk d)

theorem rowMax_isReal (hq : Fin4 q) (hk : Fin4 k) (b : Fin 2) (h : Fin 16) (tq : Fin 2048) :
    IsReal (rowMax q k b h tq) := by
  rw [isReal_iff]; unfold rowMax
  constructor
  · apply ne_of_lt
    rw [Finset.fold_max_lt]
    exact ⟨bot_lt_top, fun tk _ => lt_top_iff_ne_top.2 ((isReal_iff _).1 (score_isReal q k hq hk b h tq tk)).1⟩
  · apply ne_of_gt
    rw [Finset.lt_fold_max]
    exact Or.inr ⟨0, Finset.mem_univ _,
      bot_lt_iff_ne_bot.2 ((isReal_iff _).1 (score_isReal q k hq hk b h tq 0)).2⟩

/-- Every weight is a positive real. -/
theorem wexp_pos (hq : Fin4 q) (hk : Fin4 k) (b : Fin 2) (h : Fin 16) (tq tk : Fin 2048) :
    ∃ p : ℝ, 0 < p ∧ wexp q k b h tq tk = (p : EReal) := by
  obtain ⟨a, ha⟩ := score_isReal q k hq hk b h tq tk
  obtain ⟨m, hm⟩ := rowMax_isReal q k hq hk b h tq
  refine ⟨Real.exp (a - m), Real.exp_pos _, ?_⟩
  unfold wexp
  rw [ha, hm, ← EReal.coe_sub, Ideal.exp_coe]

/-- Dividing the weighted sum once equals dividing every weight, when queries and keys are finite. -/
theorem attnK_eq_attnR (hq : Fin4 q) (hk : Fin4 k) : attnK q k v = attnR q k v := by
  funext b h tq d
  choose p hp_pos hp using fun tk => wexp_pos q k hq hk b h tq tk
  have hden : denom q k b h tq = ((∑ tk, p tk : ℝ) : EReal) := by
    unfold denom
    rw [coe_finsum]
    exact Finset.sum_congr rfl fun tk _ => hp tk
  have hr : 0 < ∑ tk, p tk := Finset.sum_pos (fun tk _ => hp_pos tk) Finset.univ_nonempty
  have hc : (0 : ℝ) ≤ 1 / ∑ tk, p tk := by positivity
  simp only [attnK, attnR]
  rw [hden, Ideal.div_coe hr.ne', sum_mul_coe _ _ hc]
  refine Finset.sum_congr rfl fun tk _ => ?_
  rw [Ideal.div_coe hr.ne', mul_right_comm]

end core

/-! ## The projections of finite inputs are finite -/

theorem part_finite (x : SX.Idx → EReal) (w : SWqkv.Idx → EReal)
    (hx : ∀ i, x i ≠ ⊤ ∧ x i ≠ ⊥) (hw : ∀ i, w i ≠ ⊤ ∧ w i ≠ ⊥) (s : Fin 3) : Fin4 (part x w s) := by
  intro b h t d
  rw [← isReal_iff]
  unfold part proj
  exact IsReal.sum _ _ fun e _ => IsReal.mul ((isReal_iff _).2 (hx _)) ((isReal_iff _).2 (hw _))

/-- The whole layer: dividing once equals dividing every weight, for finite inputs and projection weights. -/
theorem outK_eq_outR (x : SX.Idx → EReal) (w : SWqkv.Idx → EReal) (wo : SWo.Idx → EReal)
    (hx : ∀ i, x i ≠ ⊤ ∧ x i ≠ ⊥) (hw : ∀ i, w i ≠ ⊤ ∧ w i ≠ ⊥) : outK x w wo = outR x w wo := by
  unfold outK outR
  rw [attnK_eq_attnR _ _ _ (part_finite x w hx hw 0) (part_finite x w hx hw 1)]

end Cert.Attn

end
-- ==== Proof.PreFinite.lean ====
/-
  The precondition, read back: it says every entry of the input, of the fused projection weights and of the output
  weights has absolute value below +∞, that is, every entry is a real number.
-/
import proofs.«170127_j31112743092498_2_alg».proof.Pre_finite_inputs
import proofs.«170127_j31112743092498_2_alg».proof.Proof.Gen.Pre_finite_inputs
import Idealize.ShloMosaic.Lib.ReduceAll
import Idealize.ShloMosaic.Lib.ValueIdx

noncomputable section

namespace Cert.Attn.PreFinite

open Idealize.ShloMosaic Cert.Pre_finite_inputs

/-- A rank-0 array has one index. -/
instance : Subsingleton S_.Idx := ⟨fun a b => funext fun d => d.elim0⟩

/-- The word the comparison is made against denotes +∞. -/
theorem inf_eq : Ideal.ofBits .f32 0x7F800000#32 = ⊤ := by
  simp [Ideal.ofBits, Ideal.ieee]

/-- |a| < +∞ says that a is a real number: at either infinity the absolute value max a (-a) is +∞. -/
theorem real_of_abs_lt_inf (a : EReal)
    (h : Ideal.cmp .olt (max a (-a)) (Ideal.ofBits .f32 0x7F800000#32) = 1#1) : a ≠ ⊤ ∧ a ≠ ⊥ := by
  rw [inf_eq] at h
  induction a using EReal.rec with
  | bot => simp [Ideal.cmp] at h
  | top => simp [Ideal.cmp] at h
  | coe r => exact ⟨EReal.coe_ne_top r, EReal.coe_ne_bot r⟩

/-- The precondition gives: every entry of the input and of the fused projection weights is a real number. -/
theorem finite_of_pre (x : FVec Ideal Cert.Pre_finite_inputs.S2x2048x1024 .f32)
    (w : FVec Ideal Cert.Pre_finite_inputs.S3072x1024 .f32) (wo : FVec Ideal Cert.Pre_finite_inputs.S1024x1024 .f32)
    (h : Cert.Pre_finite_inputs.fn (F := Ideal) x w wo = fun _ => 1#1) :
    (∀ i, x i ≠ ⊤ ∧ x i ≠ ⊥) ∧ (∀ i, w i ≠ ⊤ ∧ w i ≠ ⊥) := by
  have h0 := congrFun h ValueIdx.ix0
  dsimp only [Cert.Pre_finite_inputs.fn] at h0
  have h012 : IntOp.andi _ _ = 1#1 := h0
  obtain ⟨h01, _⟩ := IntOp.andi_eq_one.1 h012
  have h01' : IntOp.andi _ _ = 1#1 := h01
  obtain ⟨hx, hw⟩ := IntOp.andi_eq_one.1 h01'
  exact ⟨fun i => real_of_abs_lt_inf (x i) (Host.reduce_andi_all _ _ _ _ _ hx i),
    fun i => real_of_abs_lt_inf (w i) (Host.reduce_andi_all _ _ _ _ _ hw i)⟩

end Cert.Attn.PreFinite

end
-- ==== Proof.lean ====
/-
  A multi-head self-attention layer: the fused query/key/value projection of x with Wqkvᵀ, sixteen heads of
  softmax(q·kᵀ/8)·v, and the output projection with Woᵀ.  The kernel runs it as three tiled regions joined by reshapes
  and divides each head's weighted sum of values ONCE by the softmax normaliser; the reference divides every softmax
  weight before summing.  On the extended reals the two agree when the inputs are finite: every score is then a real,
  the row maximum is a real, every weight is a positive real, the normaliser is a positive real r, and multiplying by
  the nonnegative real 1/r distributes over the (possibly infinite-valued) sum.  The precondition supplies the
  finiteness of x and Wqkv.
  The three frames are the programs' runs; the idealization rewrote nothing, so `preserves` is trivial.
-/
import proofs.«170127_j31112743092498_2_alg».proof.Defs
import proofs.«170127_j31112743092498_2_alg».proof.Proof.Gen.Kernel
import proofs.«170127_j31112743092498_2_alg».proof.Proof.Gen.Kernel.Skeleton
import proofs.«170127_j31112743092498_2_alg».proof.Proof.Gen.Kernel.Launch
import proofs.«170127_j31112743092498_2_alg».proof.Proof.Gen.Kernel.Points
import proofs.«170127_j31112743092498_2_alg».proof.Proof.Gen.Kernel.Frame
import proofs.«170127_j31112743092498_2_alg».proof.Proof.Gen.KernelIdeal
import proofs.«170127_j31112743092498_2_alg».proof.Proof.Gen.KernelIdeal.Skeleton
import proofs.«170127_j31112743092498_2_alg».proof.Proof.Gen.KernelIdeal.Launch
import proofs.«170127_j31112743092498_2_alg».proof.Proof.Gen.KernelIdeal.Points
import proofs.«170127_j31112743092498_2_alg».proof.Proof.Gen.KernelIdeal.Frame
import proofs.«170127_j31112743092498_2_alg».proof.Proof.Gen.ReferenceIdeal
import proofs.«170127_j31112743092498_2_alg».proof.Proof.Gen.ReferenceIdeal.Run
import proofs.«170127_j31112743092498_2_alg».proof.Proof.Gen.ReferenceIdeal.Read
import proofs.«170127_j31112743092498_2_alg».proof.Proof.Gen.Pre_finite_inputs
import proofs.«170127_j31112743092498_2_alg».proof.Proof.RunValue
import proofs.«170127_j31112743092498_2_alg».proof.Proof.KernelSide
import proofs.«170127_j31112743092498_2_alg».proof.Proof.RefSide
import proofs.«170127_j31112743092498_2_alg».proof.Proof.Softmax
import proofs.«170127_j31112743092498_2_alg».proof.Proof.PreFinite
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer's output: the kernel's result is the divide-once form, the
    reference's the divide-every-weight form, and for finite x and Wqkv the two are one function. -/
theorem algebraic : Cert.algebraic_KernelIdeal_ReferenceIdeal := by
  intro m ρ m' ρ' hpre hagree
  refine ⟨fun c => Cert.Attn.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run (Cert.KernelIdeal.defs (F := Ideal)) _ _).mono
      (fun r h c => ⟨(h c).1.trans (Cert.KernelIdeal.KernelSide.kernel_value m ρ c), (h c).2⟩)
      (Cert.KernelIdeal.RunValue.run_result (F := Ideal) m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v27_eq, Cert.ReferenceIdeal.RefValue.ref_eq,
      (hagree c).1, (hagree c).2.1, (hagree c).2.2]
    exact (Cert.Attn.outK_eq_outR _ _ _ (Cert.Attn.PreFinite.finite_of_pre _ _ _ (hpre c)).1
      (Cert.Attn.PreFinite.finite_of_pre _ _ _ (hpre c)).2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
